-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048 : Shape := ⟨2, ![1, 2048]⟩
abbrev S4096x32000 : Shape := ⟨2, ![4096, 32000]⟩
abbrev S32000x2048 : Shape := ⟨2, ![32000, 2048]⟩
abbrev S2048x2048 : Shape := ⟨2, ![2048, 2048]⟩
abbrev S2048x32000 : Shape := ⟨2, ![2048, 32000]⟩
abbrev S2048 : Shape := ⟨1, ![2048]⟩
abbrev S32000 : Shape := ⟨1, ![32000]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S4096x32000 : S_.BroadcastsInDim S4096x32000 (![] : Fin 0 → Fin S4096x32000.rank)
  reducesTo_S4096x32000_S_d0_1 : S4096x32000.ReducesTo [0, 1] S_
  bcast_S_S32000x2048 : S_.BroadcastsInDim S32000x2048 (![] : Fin 0 → Fin S32000x2048.rank)
  reducesTo_S32000x2048_S_d0_1 : S32000x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x32000 : S_.BroadcastsInDim S2048x32000 (![] : Fin 0 → Fin S2048x32000.rank)
  reducesTo_S2048x32000_S_d0_1 : S2048x32000.ReducesTo [0, 1] S_
  bcast_S_S2048 : S_.BroadcastsInDim S2048 (![] : Fin 0 → Fin S2048.rank)
  reducesTo_S2048_S_d0 : S2048.ReducesTo [0] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg4 : FVec F S2048x32000 .f32) (main_arg5 : FVec F S2048 .f32) (main_arg6 : FVec F S32000 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x32000 .f32 := Host.absf main_arg4
  let main_cst_6 : FVec F S_ .f32 := constant S_ .f32 0x7F800000#32
  let main_v20 : FVec F S2048x32000 .f32 := broadcastInDim S2048x32000 ![] bcast_S_S2048x32000 main_cst_6
  let main_v21 : IVec S2048x32000 1 := cmpf .olt main_v19 main_v20
  let main_c_7 : IVec S_ 1 := constantI S_ 1 1#1
  let main_v22 : IVec S_ 1 := (fun x v => Host.reduce IntOp.andi x v reducesTo_S2048x32000_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S32000 .f32 := Host.absf main_arg6
  let main_cst_10 : FVec F S_ .f32 := constant S_ .f32 0x7F800000#32
  let main_v30 : FVec F S32000 .f32 := broadcastInDim S32000 ![] bcast_S_S32000 main_cst_10
  let main_v31 : IVec S32000 1 := cmpf .olt main_v29 main_v30
  let main_c_11 : IVec S_ 1 := constantI S_ 1 1#1
  let main_v32 : IVec S_ 1 := (fun x v => Host.reduce IntOp.andi x v reducesTo_S32000_S_d0 h_S_) main_v31 main_c_11
  let main_v33 : IVec S_ 1 := andi main_v28 main_v32
  main_v33

def fn {F : FTy → Type} [FloatOps F] (main_arg0 : FVec F S1x2048 .f32) (main_arg1 : FVec F S4096x32000 .f32) (main_arg2 : FVec F S32000x2048 .f32) (main_arg3 : FVec F S2048x2048 .f32) (main_arg4 : FVec F S2048x32000 .f32) (main_arg5 : FVec F S2048 .f32) (main_arg6 : FVec F S32000 .f32) : IVec S_ 1 :=
  let main_v0 : FVec F S1x2048 .f32 := Host.absf main_arg0
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S4096x32000 .f32 := Host.absf main_arg1
  let main_cst_0 : FVec F S_ .f32 := constant S_ .f32 0x7F800000#32
  let main_v5 : FVec F S4096x32000 .f32 := broadcastInDim S4096x32000 ![] bcast_S_S4096x32000 main_cst_0
  let main_v6 : IVec S4096x32000 1 := cmpf .olt main_v4 main_v5
  let main_c_1 : IVec S_ 1 := constantI S_ 1 1#1
  let main_v7 : IVec S_ 1 := (fun x v => Host.reduce IntOp.andi x v reducesTo_S4096x32000_S_d0_1 h_S_) main_v6 main_c_1
  let main_v8 : IVec S_ 1 := andi main_v3 main_v7
  let main_v9 : FVec F S32000x2048 .f32 := Host.absf main_arg2
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S1x2048 : Shape := ⟨2, ![1, 2048]⟩
abbrev S4096x32000 : Shape := ⟨2, ![4096, 32000]⟩
abbrev S32000x2048 : Shape := ⟨2, ![32000, 2048]⟩
abbrev S2048x2048 : Shape := ⟨2, ![2048, 2048]⟩
abbrev S2048x32000 : Shape := ⟨2, ![2048, 32000]⟩
abbrev S2048 : Shape := ⟨1, ![2048]⟩
abbrev S32000 : Shape := ⟨1, ![32000]⟩
abbrev S4096x2048 : Shape := ⟨2, ![4096, 2048]⟩
abbrev S512x1280 : Shape := ⟨2, ![512, 1280]⟩
abbrev S1280x2048 : Shape := ⟨2, ![1280, 2048]⟩
abbrev S512x2048 : Shape := ⟨2, ![512, 2048]⟩
abbrev S1x32000 : Shape := ⟨2, ![1, 32000]⟩
abbrev S2048x1280 : Shape := ⟨2, ![2048, 1280]⟩
abbrev S1x1280 : Shape := ⟨2, ![1, 1280]⟩

abbrev nBuf : Space → Nat
  | .hbm => 16
  | .vmem => 16
  | .smem => 0
  | _ => 0

abbrev bufTy : (tb : Table) → Fin (tcTables nBuf tb) → BufTy
  | .hbm, ⟨0, _⟩ => ⟨S1x2048, .f32⟩
  | .hbm, ⟨1, _⟩ => ⟨S4096x32000, .f32⟩
  | .hbm, ⟨2, _⟩ => ⟨S32000x2048, .f32⟩
  | .hbm, ⟨3, _⟩ => ⟨S2048x2048, .f32⟩
  | .hbm, ⟨4, _⟩ => ⟨S2048x32000, .f32⟩
  | .hbm, ⟨5, _⟩ => ⟨S2048, .f32⟩
  | .hbm, ⟨6, _⟩ => ⟨S32000, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S32000x2048, .bf16⟩
  | .hbm, ⟨11, _⟩ => ⟨S2048x32000, .bf16⟩
  | .hbm, ⟨12, _⟩ => ⟨S4096x2048, .f32⟩
  | .hbm, ⟨13, _⟩ => ⟨S1x32000, .f32⟩
  | .hbm, ⟨14, _⟩ => ⟨S4096x32000, .f32⟩
  | .hbm, ⟨15, _⟩ => ⟨S1x2048, .f32⟩
  | .local _ .vmem, ⟨0, _⟩ => ⟨S512x1280, .f32⟩
  | .local _ .vmem, ⟨1, _⟩ => ⟨S512x1280, .f32⟩
  | .local _ .vmem, ⟨2, _⟩ => ⟨S1280x2048, .bf16⟩
  | .local _ .vmem, ⟨3, _⟩ => ⟨S1280x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S2048x1280, .bf16⟩
  | .local _ .vmem, ⟨11, _⟩ => ⟨S2048x1280, .bf16⟩
  | .local _ .vmem, ⟨12, _⟩ => ⟨S1x1280, .f32⟩
  | .local _ .vmem, ⟨13, _⟩ => ⟨S1x1280, .f32⟩
  | .local _ .vmem, ⟨14, _⟩ => ⟨S512x1280, .f32⟩
  | .local _ .vmem, ⟨15, _⟩ => ⟨S512x1280, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v13 : BitVec 1 := Scalar.cmpi .eq arg1 c24_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S2048_S1x2048_1 : S2048.BroadcastsInDim S1x2048 (![1] : Fin 1 → Fin S1x2048.rank)
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1280_S512x1280_0_0 : ∀ a, (![0, 0] : Fin 2 → Nat) a + S512x1280.size a ≤ S512x1280.size a
  h_S512x1280 : 0 < S512x1280.numel
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S32000_S1x32000 : S32000.ShapeCasts S1x32000
  inb_S2048x1280_S2048x1280_0_0 : ∀ a, (![0, 0] : Fin 2 → Nat) a + S2048x1280.size a ≤ S2048x1280.size a
  h_S2048x1280 : 0 < S2048x1280.numel
  shapeCasts_S2048x1280_S2048x1280 : S2048x1280.ShapeCasts S2048x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  slices_S4096x2048_S1x2048_4095_0 : S4096x2048.Slices ![4095, 0] S1x2048
  dot_S1x2048_S2048x2048_S1x2048_1_0_0_1_n_n_wf : DotDims.WF S1x2048 S2048x2048 S1x2048 [1] [0] [0] [1] [] []
  dot_S512x1280_S1280x2048_S512x2048_1_0_0_1_n_n_wf : DotDims.WF S512x1280 S1280x2048 S512x2048 [1] [0] [0] [1] [] []
  dot_S512x2048_S2048x1280_S512x1280_1_0_0_1_n_n_wf : DotDims.WF S512x2048 S2048x1280 S512x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1280.size a ≤ S4096x32000.size a
  hwx0_0 : ∀ i : grid0.Coords, EltTy.bits .f32 = 32 ∨ (Rect.block (s := S4096x32000) S512x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1280.size a ≤ S2048x32000.size a
  hwx1_1 : ∀ i : grid1.Coords, EltTy.bits .bf16 = 32 ∨ (Rect.block (s := S2048x32000) S2048x1280.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1280.size a ≤ S4096x32000.size a
  hwx1_3 : ∀ i : grid1.Coords, EltTy.bits .f32 = 32 ∨ (Rect.block (s := S4096x32000) S512x1280.size (cc1_transform_3 i) (hinb1_3 i)).WholeWords (EltTy.packing .f32)

variable [Facts₀]

def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S512x1280_S1280x2048_S512x2048_1_0_0_1_n_n : DotDims S512x1280 S1280x2048 S512x2048 where
  lhsContracting := [1]
  rhsContracting := [0]
  lhsNonContracting := [0]
  rhsNonContracting := [1]
  lhsBatch := []
  rhsBatch := []
  wf := dot_S512x1280_S1280x2048_S512x2048_1_0_0_1_n_n_wf
def dot_S512x2048_S2048x1280_S512x1280_1_0_0_1_n_n : DotDims S512x2048 S2048x1280 S512x1280 where
  lhsContracting := [1]
  rhsContracting := [0]
  lhsNonContracting := [0]
  rhsNonContracting := [1]
  lhsBatch := []
  rhsBatch := []
  wf := dot_S512x2048_S2048x1280_S512x1280_1_0_0_1_n_n_wf

abbrev win0_0 : Pipeline.Window sig grid0 :=
  Pipeline.Window.ofSpec (Memref.whole main_arg1) S512x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v5) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x2048 : Shape := ⟨2, ![1, 2048]⟩
abbrev S4096x32000 : Shape := ⟨2, ![4096, 32000]⟩
abbrev S32000x2048 : Shape := ⟨2, ![32000, 2048]⟩
abbrev S2048x2048 : Shape := ⟨2, ![2048, 2048]⟩
abbrev S2048x32000 : Shape := ⟨2, ![2048, 32000]⟩
abbrev S2048 : Shape := ⟨1, ![2048]⟩
abbrev S32000 : Shape := ⟨1, ![32000]⟩
abbrev S4096x2048 : Shape := ⟨2, ![4096, 2048]⟩
abbrev S1x32000 : Shape := ⟨2, ![1, 32000]⟩

abbrev nBuf : Space → Nat
  | .hbm => 19
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S4096x32000, .f32⟩
  | .hbm, ⟨2, _⟩ => ⟨S32000x2048, .f32⟩
  | .hbm, ⟨3, _⟩ => ⟨S2048x2048, .f32⟩
  | .hbm, ⟨4, _⟩ => ⟨S2048x32000, .f32⟩
  | .hbm, ⟨5, _⟩ => ⟨S2048, .f32⟩
  | .hbm, ⟨6, _⟩ => ⟨S32000, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x32000, .f32⟩
  | .hbm, ⟨15, _⟩ => ⟨S1x32000, .f32⟩
  | .hbm, ⟨16, _⟩ => ⟨S4096x32000, .f32⟩
  | .hbm, ⟨17, _⟩ => ⟨S4096x32000, .f32⟩
  | .hbm, ⟨18, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S32000_S1x32000_1 : S32000.BroadcastsInDim S1x32000 (![1] : Fin 1 → Fin S1x32000.rank)
  bcast_S1x32000_S4096x32000_0_1 : S1x32000.BroadcastsInDim S4096x32000 (![0, 1] : Fin 2 → Fin S4096x32000.rank)
  slices_S4096x2048_S1x2048_4095_0 : S4096x2048.Slices ![4095, 0] S1x2048
  dot_S1x2048_S2048x2048_S1x2048_1_0_0_1_n_n_wf : DotDims.WF S1x2048 S2048x2048 S1x2048 [1] [0] [0] [1] [] []
  dot_S4096x32000_S32000x2048_S4096x2048_1_0_0_1_n_n_wf : DotDims.WF S4096x32000 S32000x2048 S4096x2048 [1] [0] [0] [1] [] []
  dot_S4096x2048_S2048x32000_S4096x32000_1_0_0_1_n_n_wf : DotDims.WF S4096x2048 S2048x32000 S4096x32000 [1] [0] [0] [1] [] []

variable [Facts₀]

def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S4096x32000_S32000x2048_S4096x2048_1_0_0_1_n_n : DotDims S4096x32000 S32000x2048 S4096x2048 where
  lhsContracting := [1]
  rhsContracting := [0]
  lhsNonContracting := [0]
  rhsNonContracting := [1]
  lhsBatch := []
  rhsBatch := []
  wf := dot_S4096x32000_S32000x2048_S4096x2048_1_0_0_1_n_n_wf
def dot_S4096x2048_S2048x32000_S4096x32000_1_0_0_1_n_n : DotDims S4096x2048 S2048x32000 S4096x32000 where
  lhsContracting := [1]
  rhsContracting := [0]
  lhsNonContracting := [0]
  rhsNonContracting := [1]
  lhsBatch := []
  rhsBatch := []
  wf := dot_S4096x2048_S2048x32000_S4096x32000_1_0_0_1_n_n_wf

class Facts : Prop extends Facts₀ where

variable [Facts]
-- ==== Proof.LibWholeStore.lean ====
/-
  Reading back a whole-buffer store.

  A store through the rectangle that covers a buffer's whole shape, made last, leaves the stored value: a read of the
  buffer returns it whatever was stored earlier and whatever the buffer held before. A load through that rectangle of
  a whole buffer returns the buffer's contents, and after exactly one such store returns the stored value. Stated for
  any shape, so that nothing depends on a buffer's extents.
-/
import Idealize.ShloMosaic.Lib.Pipeline.FrameBody
import Idealize.ShloMosaic.Lib.Pipeline.Frame
import Idealize.ShloMosaic.Lib.Pipeline.Value

noncomputable section

namespace Cert.Lib.WholeStore

open Idealize.ShloMosaic

variable {sig : RefSig} {κ : Kind} {sp : Space} {S : Shape} {e : EltTy} {Val : EltTy → Type} [∀ e, Nonempty (Val e)]

/-- A read after a whole-shape store made last returns the stored value. -/
theorem read_after_whole_store (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  funext y
  rw [View.read_writes_apply_eq_canon v f y _ ⟨_, List.mem_cons_self .., View.mem_set_unit_zero h inb y⟩,
    View.canon_cons_unit_zero h inb]

/-- A whole-shape load of a whole buffer returns its contents. -/
theorem readAt_whole {m : Memref sig κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h inb]

/-- A whole-shape load after exactly one whole-shape store returns the stored value. -/
theorem readCov_whole (v : View sig κ sp S e) {off : Fin S.rank → Nat} (h : off = fun _ => 0)
    (inb : ∀ a, off a + S.size a ≤ S.size a) (w : S.Idx → Val e) :
    v.readCov [(⟨Rect.unit off S.size inb, w⟩ : View.Piece Val S e)] (Rect.unit off S.size inb).toLoadRect = w :=
  View.readCov_unit_zero v h inb w

end Cert.Lib.WholeStore

end
-- ==== Proof.Kernel.Region0.lean ====
import proofs.«177360_j40604620816471_2_alg».proof.Proof.Gen.Kernel.Launch
import proofs.«177360_j40604620816471_2_alg».proof.Proof.Gen.Kernel.Skeleton
import proofs.«177360_j40604620816471_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«177360_j40604620816471_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first kernel region: h = tanh(x·Wxh + hc), the vocabulary axis contracted block by block

The grid is 8 row tiles by 25 vocabulary tiles, the vocabulary tile innermost. At vocabulary tile 0 the body
clears a 512×2048 accumulator held in scratch; at every tile it adds the product of the x block by the Wxh block;
at tile 24 it adds the bias row, applies tanh and stores the output block. So the scratch after a point is a
function of the scratch after the point before (or of nothing, at tile 0) and of the point's two input blocks, and
the output block is stored at the last vocabulary tile only. -/

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where the block is not
    fetched its index has not moved since the point before. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- The first branch: the vocabulary tile is tile 0. -/
abbrev condZ (i : grid0.Coords) : Prop := (Scalar.cmpi .ne (Scalar.extui (Scalar.cmpi .eq (BitVec.ofNat 32 (i 1).val) 0#32)) 0#32) = 1#1
/-- The second branch: the vocabulary tile is the last one, tile 24. -/
abbrev condL (i : grid0.Coords) : Prop := k0_cond2 i = 1#1

theorem hcondZ : ∀ t : Fin cfg0.N, condZ (grid0.coords t) ↔ t.val % 25 = 0 :=
  (by decide +kernel : ∀ t : Fin grid0.N, condZ (grid0.coords t) ↔ t.val % 25 = 0)
theorem hcondL : ∀ t : Fin cfg0.N, condL (grid0.coords t) ↔ t.val % 25 = 24 :=
  (by decide +kernel : ∀ t : Fin grid0.N, condL (grid0.coords t) ↔ t.val % 25 = 24)

/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last vocabulary tile the output window is idle and is not written back. -/
theorem idle0_3 : ∀ t : Fin cfg0.N, ¬condL (grid0.coords t) → cfg0.idle 3 (grid0.coords t) = true := by decide +kernel
theorem noFlush0_3 : ∀ t : Fin cfg0.N, ¬condL (grid0.coords t) → (cfg0.win 3).flush t = false := by decide +kernel
/-- At the last vocabulary tile it is live. -/
theorem live0_3 : ∀ t : Fin cfg0.N, condL (grid0.coords t) → cfg0.idle 3 (grid0.coords t) = false := by decide +kernel

/-! ## The body on whole memrefs, case by case -/

/-- The scratch operand: a whole scoped buffer of the kernel's own. -/
abbrev scM : Memref sig .tc .vmem S512x2048 .f32 := Memref.whole cc0_scratch0

/-- The whole-shape rectangle's offsets are zero. -/
theorem off2_zero : (![0, 0] : Fin 2 → Nat) = fun _ => 0 := funext fun a => by
  match a with
  | ⟨0, _⟩ => rfl
  | ⟨1, _⟩ => rfl

set_option maxHeartbeats 2000000 in
/-- Vocabulary tile 0, not the last: the accumulator is cleared, then holds the product of the two blocks added to
    zero; the output block's buffer is left as found. -/
theorem runA (c : Dev nD) (i : grid0.Coords) (arg2 : Memref sig .tc .vmem S512x1280 .f32) (harg2 : arg2.IsWhole) (arg3 : Memref sig .tc .vmem S1280x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole)
    (hc0 : condZ i) (hc1 : ¬condL i)
    (x0 : Vec F S512x1280 .f32) (x1 : Vec F S1280x2048 .bf16) (x2 : Vec F S1x2048 .f32) (xs : Vec F S512x2048 .f32) (xi3 : Vec F S512x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 x0 (k0_pay1 (F := F)) x1)) -∗ K ⟨⟩))
      ⊢ wp frame (wpE (defs₀ (F := F)) Variants.none c none) E (cc0__h_kernel i arg2 harg2 arg3 harg3 arg4 harg4 arg5 harg5 arg6 harg6) K := by
  simp only [cc0__h_kernel_eq_skeleton]; unfold cc0__h_kernel_skel
  unfold owns
  iintro ⟨⟨%f0, %hf0, H0⟩, ⟨%f1, %hf1, H1⟩, ⟨%f2, %hf2, H2⟩, ⟨%f3, %hf3, H3⟩, ⟨%ds, %fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  refine (Cert.Lib.WholeStore.read_after_whole_store arg6.view _ off2_zero _ _ _).trans ?_
  simp only [Cert.Lib.WholeStore.readAt_whole harg2 off2_zero, Cert.Lib.WholeStore.readAt_whole harg3 off2_zero, Cert.Lib.WholeStore.readAt_whole harg4 off2_zero, Cert.Lib.WholeStore.readAt_whole harg6 off2_zero, Cert.Lib.WholeStore.readCov_whole arg6.view off2_zero]

set_option maxHeartbeats 2000000 in
/-- A vocabulary tile strictly between the first and the last: the product of the two blocks is added to what the
    accumulator held; the output block's buffer is left as found. -/
theorem runB (c : Dev nD) (i : grid0.Coords) (arg2 : Memref sig .tc .vmem S512x1280 .f32) (harg2 : arg2.IsWhole) (arg3 : Memref sig .tc .vmem S1280x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole)
    (hc0 : ¬condZ i) (hc1 : ¬condL i)
    (x0 : Vec F S512x1280 .f32) (x1 : Vec F S1280x2048 .bf16) (x2 : Vec F S1x2048 .f32) (xs : Vec F S512x2048 .f32) (xi3 : Vec F S512x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 x0 xs x1)) -∗ K ⟨⟩))
      ⊢ wp frame (wpE (defs₀ (F := F)) Variants.none c none) E (cc0__h_kernel i arg2 harg2 arg3 harg3 arg4 harg4 arg5 harg5 arg6 harg6) K := by
  simp only [cc0__h_kernel_eq_skeleton]; unfold cc0__h_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  skip
  refine (Cert.Lib.WholeStore.read_after_whole_store arg6.view _ off2_zero _ _ _).trans ?_
  simp only [Cert.Lib.WholeStore.readAt_whole harg2 off2_zero, Cert.Lib.WholeStore.readAt_whole harg3 off2_zero, Cert.Lib.WholeStore.readAt_whole harg4 off2_zero, Cert.Lib.WholeStore.readAt_whole harg6 off2_zero, Cert.Lib.WholeStore.readCov_whole arg6.view off2_zero]

set_option maxHeartbeats 2000000 in
/-- The last vocabulary tile: the product is added as before, and the output block is stored: tanh of the
    accumulator plus the bias row repeated down the rows. -/
theorem runC (c : Dev nD) (i : grid0.Coords) (arg2 : Memref sig .tc .vmem S512x1280 .f32) (harg2 : arg2.IsWhole) (arg3 : Memref sig .tc .vmem S1280x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole)
    (hc0 : ¬condZ i) (hc1 : condL i)
    (x0 : Vec F S512x1280 .f32) (x1 : Vec F S1280x2048 .bf16) (x2 : Vec F S1x2048 .f32) (xs : Vec F S512x2048 .f32) (xi3 : Vec F S512x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 xs x1) x2) ∗ owns (c : Thread nD τ) arg6 fullShare (k0_pay2 x0 xs x1)) -∗ K ⟨⟩))
      ⊢ wp frame (wpE (defs₀ (F := F)) Variants.none c none) E (cc0__h_kernel i arg2 harg2 arg3 harg3 arg4 harg4 arg5 harg5 arg6 harg6) K := by
  simp only [cc0__h_kernel_eq_skeleton]; unfold cc0__h_kernel_skel
  unfold owns
  iintro ⟨⟨%f0, %hf0, H0⟩, ⟨%f1, %hf1, H1⟩, ⟨%f2, %hf2, H2⟩, ⟨%d3, %f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    refine (Cert.Lib.WholeStore.read_after_whole_store arg5.view _ off2_zero _ _ _).trans ?_
    simp only [Cert.Lib.WholeStore.readAt_whole harg2 off2_zero, Cert.Lib.WholeStore.readAt_whole harg3 off2_zero, Cert.Lib.WholeStore.readAt_whole harg4 off2_zero, Cert.Lib.WholeStore.readAt_whole harg6 off2_zero, Cert.Lib.WholeStore.readCov_whole arg6.view off2_zero]
  iexists _; isplitr
  swap; · iexact HS
  ipureintro
  sl_unfold_run_names
  refine (Cert.Lib.WholeStore.read_after_whole_store arg6.view _ off2_zero _ _ _).trans ?_
  simp only [Cert.Lib.WholeStore.readAt_whole harg2 off2_zero, Cert.Lib.WholeStore.readAt_whole harg3 off2_zero, Cert.Lib.WholeStore.readAt_whole harg4 off2_zero, Cert.Lib.WholeStore.readAt_whole harg6 off2_zero, Cert.Lib.WholeStore.readCov_whole arg6.view off2_zero]

/-! ## The accumulator after each point -/

/-- What the scratch accumulator holds after the body at position `n`: at a point whose vocabulary tile is 0, the
    product of the point's two blocks added to zero; at any other point, that product added to what the point before
    left. -/
def accAt (c : Dev nD) : (n : ℕ) → n < cfg0.N → Vec F S512x2048 .f32
  | 0, hn => k0_pay2 (iblk0 V c 0 ⟨0, hn⟩) (k0_pay1 (F := F)) (iblk0 V c 1 ⟨0, hn⟩)
  | n + 1, hn =>
    if (n + 1) % 25 = 0 then k0_pay2 (iblk0 V c 0 ⟨n + 1, hn⟩) (k0_pay1 (F := F)) (iblk0 V c 1 ⟨n + 1, hn⟩)
    else k0_pay2 (iblk0 V c 0 ⟨n + 1, hn⟩) (accAt c n (Nat.lt_of_succ_lt hn)) (iblk0 V c 1 ⟨n + 1, hn⟩)

/-- At a point of vocabulary tile 0. -/
theorem accAt_first (c : Dev nD) (t : Fin cfg0.N) (h0 : t.val % 25 = 0) :
    accAt V c t.val t.isLt = k0_pay2 (iblk0 V c 0 t) (k0_pay1 (F := F)) (iblk0 V c 1 t) := by
  obtain ⟨n, hn⟩ := t
  cases n with
  | zero => rfl
  | succ n => exact if_pos h0

/-- At any other point. -/
theorem accAt_next (c : Dev nD) (t : Fin cfg0.N) (h0 : ¬t.val % 25 = 0) :
    accAt V c t.val t.isLt
      = k0_pay2 (iblk0 V c 0 t) (accAt V c (t.val - 1) (Nat.lt_of_le_of_lt (Nat.sub_le _ _) t.isLt)) (iblk0 V c 1 t) := by
  obtain ⟨n, hn⟩ := t
  cases n with
  | zero => exact absurd (Nat.zero_mod _) h0
  | succ n => exact if_neg h0

/-! ## The region's invariant -/

/-- The scoped buffers of the core that are neither a staging buffer of this region nor its scratch: the second
    region's eight staging buffers, each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Every scoped buffer that is no staging buffer of this region at some contents, with the generator register at some
    state: the scratch accumulator owned at some contents, the rest, the register. -/
theorem PhiA0_eq (c : Dev nD) :
    (Pipeline.ΦA spec0 c : sProp 𝕄)
      = iprop(iprop((∃ d, owns (c : Thread nD τ) scM fullShare d) ∗ otherScoped c) ∗ (∃ r, prngReg c r)) := by
  unfold Pipeline.ΦA otherScoped; rw [scopedRest0_eq]; simp only [scM, owns_whole]; try rfl

/-- The invariant before position `n`: before the first point, every such scoped buffer at anything; afterwards the
    accumulator at what the point before left in it, the rest at anything. -/
def PhiS (c : Dev nD) : (n : ℕ) → n ≤ cfg0.N → sProp 𝕄
  | 0, _ => Pipeline.ΦA spec0 c
  | n + 1, hn => iprop(iprop(owns (c : Thread nD τ) scM fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ otherScoped c) ∗ (∃ r, prngReg c r)) := by
  cases n with
  | zero => exact absurd rfl hz
  | succ n => rfl

/-! ## The proof data -/

/-- The arrays as the region finds them; after the body at a point each input's buffer at its block and the output's
    at tanh of the accumulator plus the bias row (consulted only at the last vocabulary tile, where the body stores it);
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt V c t.val t.isLt) (iblk0 V c 2 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (accAt V c t.val t.isLt) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks. The point's vocabulary tile decides the case. The
    invariant hands the body the accumulator at what the point before left (at anything, before the first point)
    and takes it back at this point's contents; the other scoped buffers and the generator register pass through;
    away from the last vocabulary tile the output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 200 := lt_of_lt_of_eq t.isLt (show cfg0.N = 200 from N_0)
  rw [show (dat0 V c).leavesExact 0 t = owns (c : Thread nD τ) (st0_0 t) fullShare ((dat0 V c).after 0 t) from by
      unfold Dat.leavesExact; rw [live0_0 t], after0_0]
  rw [show (dat0 V c).leavesExact 1 t = owns (c : Thread nD τ) (st0_1 t) fullShare ((dat0 V c).after 1 t) from by
      unfold Dat.leavesExact; rw [live0_1 t], after0_1]
  rw [show (dat0 V c).leavesExact 2 t = owns (c : Thread nD τ) (st0_2 t) fullShare ((dat0 V c).after 2 t) from by
      unfold Dat.leavesExact; rw [live0_2 t], after0_2]
  by_cases h0 : t.val % 25 = 0
  · have hZ : condZ (grid0.coords t) := (hcondZ t).mpr h0
    have hL : ¬condL (grid0.coords t) := fun h => by have := (hcondL t).mp h; omega
    rw [Dat.leavesExact_idle (dat0 V c) 3 t (idle0_3 t hL) (noFlush0_3 t hL), accAt_first V c t h0]
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩, ⟨%d3, H3⟩⟩
      iapply (runA c (grid0.coords t) _ _ _ _ _ _ _ _ _ _ hZ hL (iblk0 V c 0 t) (iblk0 V c 1 t) (iblk0 V c 2 t) (k0_pay1 (F := F)) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists d3; iexact H3
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩⟩
      iapply (runA c (grid0.coords t) _ _ _ _ _ _ _ _ _ _ hZ hL (iblk0 V c 0 t) (iblk0 V c 1 t) (iblk0 V c 2 t) (k0_pay1 (F := F)) ((dat0 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists d3; iexact H3
  · have hZ : ¬condZ (grid0.coords t) := fun h => h0 ((hcondZ t).mp h)
    have hz : t.val ≠ 0 := fun h => h0 (by rw [h])
    rw [accAt_next V c t h0, PhiS_castSucc V c t, PhiS_pos V c _ _ hz]
    by_cases h1 : t.val % 25 = 24
    · have hL : condL (grid0.coords t) := (hcondL t).mpr h1
      rw [show (dat0 V c).leavesExact 3 t = owns (c : Thread nD τ) (st0_3 t) fullShare ((dat0 V c).after 3 t) from by
        unfold Dat.leavesExact; rw [live0_3 t hL], after0_3, accAt_next V c t h0]
      iintro ⟨⟨⟨HS, Hr⟩, Hg⟩, Ho, ⟨%d0, H0⟩, ⟨%d1, H1⟩, ⟨%d2, H2⟩, ⟨%d3, H3⟩⟩
      iapply (runC c (grid0.coords t) _ _ _ _ _ _ _ _ _ _ hZ hL (iblk0 V c 0 t) (iblk0 V c 1 t) (iblk0 V c 2 t) _ (k0_pay1 (F := F)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hL : ¬condL (grid0.coords t) := fun h => h1 ((hcondL t).mp h)
      rw [Dat.leavesExact_idle (dat0 V c) 3 t (idle0_3 t hL) (noFlush0_3 t hL)]
      iintro ⟨⟨⟨HS, Hr⟩, Hg⟩, Ho, ⟨%d0, H0⟩, ⟨%d1, H1⟩, ⟨%d2, H2⟩, ⟨%d3, H3⟩⟩
      iapply (runB c (grid0.coords t) _ _ _ _ _ _ _ _ _ _ hZ hL (iblk0 V c 0 t) (iblk0 V c 1 t) (iblk0 V c 2 t) _ ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists d3; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the same back: the accumulator's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 200 := N_0; omega), PhiA0_eq]
  iintro ⟨⟨HS, Hr⟩, Hg⟩
  isplitl [HS Hr]
  · isplitl [HS]
    · iexists _; iexact HS
    iexact Hr
  iexact Hg

end Cert.Kernel.Hand

end
-- ==== Proof.Kernel.Region1.lean ====
import proofs.«177360_j40604620816471_2_alg».proof.Proof.Gen.Kernel.Launch
import proofs.«177360_j40604620816471_2_alg».proof.Proof.Gen.Kernel.Skeleton
import proofs.«177360_j40604620816471_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«177360_j40604620816471_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second kernel region: logits = h·Why + by, one output tile per grid point

The grid is 8 row tiles by 25 vocabulary tiles. At every point the body multiplies the 512×2048 block of h by the
2048×1280 block of Why into a zero accumulator, adds the 1×1280 block of the bias repeated down the rows, and stores
the 512×1280 output block whole. Nothing is kept between points. -/

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where the block is not
    fetched its index has not moved since the point before. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-shape rectangle's offsets are zero. -/
theorem off2_zero' : (![0, 0] : Fin 2 → Nat) = fun _ => 0 := funext fun a => by
  match a with
  | ⟨0, _⟩ => rfl
  | ⟨1, _⟩ => rfl

/-! ## The body on whole memrefs -/

set_option maxHeartbeats 2000000 in
/-- The body, given the three input blocks, stores the product of the first two plus the third repeated down the rows
    into the output block's buffer and leaves the inputs as they were. -/
theorem run1 (c : Dev nD) (i : grid1.Coords) (arg2 : Memref sig .tc .vmem S512x2048 .f32) (harg2 : arg2.IsWhole) (arg3 : Memref sig .tc .vmem S2048x1280 .bf16) (harg3 : arg3.IsWhole) (arg4 : Memref sig .tc .vmem S1x1280 .f32) (harg4 : arg4.IsWhole) (arg5 : Memref sig .tc .vmem S512x1280 .f32) (harg5 : arg5.IsWhole)
    (x0 : Vec F S512x2048 .f32) (x1 : Vec F S2048x1280 .bf16) (x2 : Vec F S1x1280 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 x0 x1 x2)) -∗ K ⟨⟩))
      ⊢ wp frame (wpE (defs₀ (F := F)) Variants.none c none) E (cc1__logits_kernel i arg2 harg2 arg3 harg3 arg4 harg4 arg5 harg5) K := by
  simp only [cc1__logits_kernel_eq_skeleton]; unfold cc1__logits_kernel_skel
  unfold owns
  iintro ⟨⟨%f0, %hf0, H0⟩, ⟨%f1, %hf1, H1⟩, ⟨%f2, %hf2, H2⟩, ⟨%xi3, %f3, %hf3, H3⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  refine (Cert.Lib.WholeStore.read_after_whole_store arg5.view _ off2_zero' _ _ _).trans ?_
  simp only [Cert.Lib.WholeStore.readAt_whole harg2 off2_zero', Cert.Lib.WholeStore.readAt_whole harg3 off2_zero', Cert.Lib.WholeStore.readAt_whole harg4 off2_zero']

/-! ## The proof data -/

/-- The arrays as the region finds them; after the body at a point each input's buffer at its block and the output's
    at the body's result on the point's three input blocks; the invariant every scoped buffer that is no staging
    buffer of this region at some contents and the generator register at some state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (run1 c (grid1.coords t) _ _ _ _ _ _ _ _ (iblk1 V c 0 t) (iblk1 V c 1 t) (iblk1 V c 2 t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
import proofs.«177360_j40604620816471_2_alg».proof.Proof.Gen.Kernel.Launch
import proofs.«177360_j40604620816471_2_alg».proof.Proof.Gen.Kernel.Skeleton
import proofs.«177360_j40604620816471_2_alg».proof.Proof.Gen.Kernel.Points
import proofs.«177360_j40604620816471_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.StableHlo.Run
import proofs.«177360_j40604620816471_2_alg».proof.Proof.Kernel.Region0
import proofs.«177360_j40604620816471_2_alg».proof.Proof.Kernel.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program

The program is five stretches in order: five host operations, the first kernel region, one host operation, the second
kernel region, one host operation. Each stretch is entered from what the one before it left. The contents of every
unscoped buffer at the six boundaries are written down as a fold from the launch memory; the two regions are entered
and left through those contents; and the last boundary's contents are read against every final memory.

## The buffers' contents at each boundary -/

/-- A core's buffers at launch. -/
abbrev W0 : Dev nD → Valuation τ sig (Elt F) := fun c b => (s₀ m ρ).mem ((c : Dev nD), b)
/-- After the first five host operations: what the first region is entered from. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- When the first region is left: each of its four arrays at what the region's write-backs leave in it (an input
    array as entered), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operation between the regions: what the second region is entered from. -/
abbrev W3 : Dev nD → Valuation τ sig (Elt F) := fun c => StableHlo.after hostOps1 (W2 m ρ c)
/-- The same, read at the core's own references. -/
abbrev V3 : (c : Dev nD) → (b : Ref sig .tc) → Buf (Elt F) ((c : Thread nD τ).loc b) := fun c b => W3 m ρ c b
/-- When the second region is left: each of its four arrays at what the region's write-backs leave in it, every other
    buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the core's own references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host operation: what the program returns with. -/
abbrev W5 : Dev nD → Valuation τ sig (Elt F) := fun c => StableHlo.after hostOps2 (W4 m ρ c)

/-! ## Reading a buffer back through the fold

A host stretch leaves alone every buffer it does not write; a region leaves alone every buffer that is none of its
arrays, and an input array too. -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- A buffer no stretch writes and no region has as an array ends as launched. -/
theorem W5_untouched (c : Dev nD) (r : Ref sig .tc) (h0 : r ∉ hostOps0_W) (h1 : r ∉ hostOps1_W) (h2 : r ∉ hostOps2_W)
    (hr0 : ∀ w, Pipeline.arrRef spec0 w ≠ r) (hr1 : ∀ w, Pipeline.arrRef spec1 w ≠ r) :
    W5 m ρ c (Proc.devRef .tc r) = m ((c : Thread nD τ).loc r) :=
  (W5_of m ρ c r h2).trans <| (W4_of_ne m ρ c r hr1).trans <| (W3_of m ρ c r h1).trans <|
    (W2_of_ne m ρ c r hr0).trans <| (W1_of m ρ c r h0).trans rfl

/-! ### The arguments end as launched -/

theorem W5_main_arg0 (c : Dev nD) : W5 m ρ c (Proc.devRef .tc main_arg0) = m ((c : Thread nD τ).loc main_arg0) :=
  W5_untouched m ρ c main_arg0 (by decide) (by decide) (by decide) (by decide) (by decide)
/-- The first region reads this argument through its first input window. -/
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <|
    (W3_of m ρ c main_arg1 (by decide)).trans <|
    ((W2_arr m ρ c 0).trans (((dat0 (V1 m ρ) c).arrAt_in 0 rfl _).trans (A_eq0 (V1 m ρ) c 0))).trans <|
    (W1_of m ρ c main_arg1 (by decide)).trans rfl
theorem W5_main_arg2 (c : Dev nD) : W5 m ρ c (Proc.devRef .tc main_arg2) = m ((c : Thread nD τ).loc main_arg2) :=
  W5_untouched m ρ c main_arg2 (by decide) (by decide) (by decide) (by decide) (by decide)
theorem W5_main_arg3 (c : Dev nD) : W5 m ρ c (Proc.devRef .tc main_arg3) = m ((c : Thread nD τ).loc main_arg3) :=
  W5_untouched m ρ c main_arg3 (by decide) (by decide) (by decide) (by decide) (by decide)
theorem W5_main_arg4 (c : Dev nD) : W5 m ρ c (Proc.devRef .tc main_arg4) = m ((c : Thread nD τ).loc main_arg4) :=
  W5_untouched m ρ c main_arg4 (by decide) (by decide) (by decide) (by decide) (by decide)
theorem W5_main_arg5 (c : Dev nD) : W5 m ρ c (Proc.devRef .tc main_arg5) = m ((c : Thread nD τ).loc main_arg5) :=
  W5_untouched m ρ c main_arg5 (by decide) (by decide) (by decide) (by decide) (by decide)
theorem W5_main_arg6 (c : Dev nD) : W5 m ρ c (Proc.devRef .tc main_arg6) = m ((c : Thread nD τ).loc main_arg6) :=
  W5_untouched m ρ c main_arg6 (by decide) (by decide) (by decide) (by decide) (by decide)

/-! ### What the first region is entered from -/

theorem V1_main_arg1 (c : Dev nD) : V1 m ρ c main_arg1 = m ((c : Thread nD τ).loc main_arg1) :=
  (W1_of m ρ c main_arg1 (by decide)).trans rfl

theorem V1_main_v3 (c : Dev nD) :
    V1 m ρ c main_v3 = truncf .bf16 (m ((c : Thread nD τ).loc main_arg2)) bitsLt_bf16_f32 := by
  show StableHlo.after hostOps0 (W0 m ρ c) (Proc.devRef .tc main_v3) = _
  after_results
  try rfl

theorem V1_main_v2 (c : Dev nD) :
    V1 m ρ c main_v2
      = addf (Host.dotGeneral dot_S1x2048_S2048x2048_S1x2048_1_0_0_1_n_n none (m ((c : Thread nD τ).loc main_arg0))
            (m ((c : Thread nD τ).loc main_arg3)))
          (broadcastInDim S1x2048 ![1] bcast_S2048_S1x2048_1 (m ((c : Thread nD τ).loc main_arg5))) := by
  show StableHlo.after hostOps0 (W0 m ρ c) (Proc.devRef .tc main_v2) = _
  after_results
  try rfl

/-! ### What the second region is entered from -/

/-- Its first input array is the first region's output array as that region left it. -/
theorem V3_main_v5 (c : Dev nD) : V3 m ρ c main_v5 = (dat0 (V1 m ρ) c).arrAt 3 cfg0.N :=
  (W3_of m ρ c main_v5 (by decide)).trans (W2_arr m ρ c 3)

theorem V3_main_v4 (c : Dev nD) :
    V3 m ρ c main_v4 = truncf .bf16 (m ((c : Thread nD τ).loc main_arg4)) bitsLt_bf16_f32 := by
  refine (W3_of m ρ c main_v4 (by decide)).trans <| (W2_of_ne m ρ c main_v4 (by decide)).trans ?_
  show StableHlo.after hostOps0 (W0 m ρ c) (Proc.devRef .tc main_v4) = _
  after_results
  try rfl

/-- The seventh argument, just before the host operation between the regions, is as launched. -/
theorem W2_main_arg6 (c : Dev nD) : W2 m ρ c (Proc.devRef .tc main_arg6) = m ((c : Thread nD τ).loc main_arg6) :=
  (W2_of_ne m ρ c main_arg6 (by decide)).trans <| (W1_of m ρ c main_arg6 (by decide)).trans rfl

theorem V3_main_v6 (c : Dev nD) :
    V3 m ρ c main_v6 = fun i => shapeCast S1x32000 (m ((c : Thread nD τ).loc main_arg6)) shapeCasts_S32000_S1x32000 i := by
  show StableHlo.after hostOps1 (W2 m ρ c) (Proc.devRef .tc main_v6) = _
  after_results
  rw [W2_main_arg6]
  try rfl

/-! ### The results -/

/-- The second region's output array, as that region left it. -/
theorem W5_main_v7 (c : Dev nD) : W5 m ρ c (Proc.devRef .tc main_v7) = (dat1 (V3 m ρ) c).arrAt 3 cfg1.N :=
  (W5_of m ρ c main_v7 (by decide)).trans (W4_arr m ρ c 3)

/-- The first region's output array when the last host operation reads it: the second region only reads it. -/
theorem W4_main_v5 (c : Dev nD) : W4 m ρ c (Proc.devRef .tc main_v5) = (dat0 (V1 m ρ) c).arrAt 3 cfg0.N :=
  (W4_arr m ρ c 0).trans <| ((dat1 (V3 m ρ) c).arrAt_in 0 rfl _).trans <| (A_eq1 (V3 m ρ) c 0).trans (V3_main_v5 m ρ c)

/-- The last row of the first region's output array. -/
theorem W5_main_v8 (c : Dev nD) :
    W5 m ρ c (Proc.devRef .tc main_v8)
      = extractStridedSlice S1x2048 ![4095, 0] ((dat0 (V1 m ρ) c).arrAt 3 cfg0.N) slices_S4096x2048_S1x2048_4095_0 := by
  show StableHlo.after hostOps2 (W4 m ρ c) (Proc.devRef .tc main_v8) = _
  after_results
  rw [W4_main_v5]

/-! ## The proof data of both regions and the thread state between stretches -/

/-- No pipeline has a prefetched table. -/
abbrev adm : (p : Fin 2) → (pcfgs (F := F) p).Adm := fun p => (cfgs p).toPCfg_adm
/-- Both regions' proof data, each at the contents its region is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What a core holds beside its buffers at every boundary: its generator register at some state, and that it owes
    nothing. -/
abbrev R (c : Dev nD) : sProp 𝕄 := iprop((∃ r, prngReg c r) ∗ ∃ W, owes (c : Thread nD τ) (0 : CellTallies nD τ sig Unit) W)
/-- A stretch of host operations as a segment: from every unscoped buffer at the given contents to every unscoped
    buffer at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, beside which the core owes nothing: every unscoped buffer at the last boundary's contents,
    the generator register at some state. -/
abbrev Tₙ (c : Dev nD) : sProp 𝕄 := iprop(StableHlo.held (c : Thread nD τ) (Pipeline.ucRefs τ sig) (W5 m ρ c) ∗ ∃ r, prngReg c r)

/-- What the last host stretch leaves is the last thread state beside the core owing nothing. -/
theorem last_link (c : Dev nD) :
    (iprop(StableHlo.held (c : Thread nD τ) (Pipeline.ucRefs τ sig) (W5 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The first region: entered from every unscoped buffer at W1, left at W2. Its four arrays are split out of the
    unscoped buffers and put back at the contents the region leaves; the generator register goes into the region's
    invariant with the scoped buffers and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W3, left at W4, in the same way; its invariant is the
    scoped buffers at some contents and the generator register at some state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its five segments, and the launch -/

/-- The five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of the five segments. -/
theorem main_run (c : Dev nD) : main (F := F) c = Pipeline.Seg.run (segs m ρ) := (main_chain c).trans (by chain_rfl)

set_option backward.isDefEq.respectTransparency.types false in
/-- From any launch memory with zero counters every weakly fair execution of the program terminates, nothing
    faulting, and in every final memory every unscoped buffer of every core holds the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

end Cert.Kernel.Hand

end
-- ==== Proof.KernelIdeal.Region0.lean ====
import proofs.«177360_j40604620816471_2_alg».proof.Proof.Gen.KernelIdeal.Launch
import proofs.«177360_j40604620816471_2_alg».proof.Proof.Gen.KernelIdeal.Skeleton
import proofs.«177360_j40604620816471_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«177360_j40604620816471_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first kernel region: h = tanh(x·Wxh + hc), the vocabulary axis contracted block by block

The grid is 8 row tiles by 25 vocabulary tiles, the vocabulary tile innermost. At vocabulary tile 0 the body
clears a 512×2048 accumulator held in scratch; at every tile it adds the product of the x block by the Wxh block;
at tile 24 it adds the bias row, applies tanh and stores the output block. So the scratch after a point is a
function of the scratch after the point before (or of nothing, at tile 0) and of the point's two input blocks, and
the output block is stored at the last vocabulary tile only. -/

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where the block is not
    fetched its index has not moved since the point before. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- The first branch: the vocabulary tile is tile 0. -/
abbrev condZ (i : grid0.Coords) : Prop := (Scalar.cmpi .ne (Scalar.extui (Scalar.cmpi .eq (BitVec.ofNat 32 (i 1).val) 0#32)) 0#32) = 1#1
/-- The second branch: the vocabulary tile is the last one, tile 24. -/
abbrev condL (i : grid0.Coords) : Prop := k0_cond2 i = 1#1

theorem hcondZ : ∀ t : Fin cfg0.N, condZ (grid0.coords t) ↔ t.val % 25 = 0 :=
  (by decide +kernel : ∀ t : Fin grid0.N, condZ (grid0.coords t) ↔ t.val % 25 = 0)
theorem hcondL : ∀ t : Fin cfg0.N, condL (grid0.coords t) ↔ t.val % 25 = 24 :=
  (by decide +kernel : ∀ t : Fin grid0.N, condL (grid0.coords t) ↔ t.val % 25 = 24)

/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last vocabulary tile the output window is idle and is not written back. -/
theorem idle0_3 : ∀ t : Fin cfg0.N, ¬condL (grid0.coords t) → cfg0.idle 3 (grid0.coords t) = true := by decide +kernel
theorem noFlush0_3 : ∀ t : Fin cfg0.N, ¬condL (grid0.coords t) → (cfg0.win 3).flush t = false := by decide +kernel
/-- At the last vocabulary tile it is live. -/
theorem live0_3 : ∀ t : Fin cfg0.N, condL (grid0.coords t) → cfg0.idle 3 (grid0.coords t) = false := by decide +kernel

/-! ## The body on whole memrefs, case by case -/

/-- The scratch operand: a whole scoped buffer of the kernel's own. -/
abbrev scM : Memref sig .tc .vmem S512x2048 .f32 := Memref.whole cc0_scratch0

/-- The whole-shape rectangle's offsets are zero. -/
theorem off2_zero : (![0, 0] : Fin 2 → Nat) = fun _ => 0 := funext fun a => by
  match a with
  | ⟨0, _⟩ => rfl
  | ⟨1, _⟩ => rfl

set_option maxHeartbeats 2000000 in
/-- Vocabulary tile 0, not the last: the accumulator is cleared, then holds the product of the two blocks added to
    zero; the output block's buffer is left as found. -/
theorem runA (c : Dev nD) (i : grid0.Coords) (arg2 : Memref sig .tc .vmem S512x1280 .f32) (harg2 : arg2.IsWhole) (arg3 : Memref sig .tc .vmem S1280x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole)
    (hc0 : condZ i) (hc1 : ¬condL i)
    (x0 : Vec F S512x1280 .f32) (x1 : Vec F S1280x2048 .bf16) (x2 : Vec F S1x2048 .f32) (xs : Vec F S512x2048 .f32) (xi3 : Vec F S512x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 x0 (k0_pay1 (F := F)) x1)) -∗ K ⟨⟩))
      ⊢ wp frame (wpE (defs₀ (F := F)) Variants.none c none) E (cc0__h_kernel i arg2 harg2 arg3 harg3 arg4 harg4 arg5 harg5 arg6 harg6) K := by
  simp only [cc0__h_kernel_eq_skeleton]; unfold cc0__h_kernel_skel
  unfold owns
  iintro ⟨⟨%f0, %hf0, H0⟩, ⟨%f1, %hf1, H1⟩, ⟨%f2, %hf2, H2⟩, ⟨%f3, %hf3, H3⟩, ⟨%ds, %fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  refine (Cert.Lib.WholeStore.read_after_whole_store arg6.view _ off2_zero _ _ _).trans ?_
  simp only [Cert.Lib.WholeStore.readAt_whole harg2 off2_zero, Cert.Lib.WholeStore.readAt_whole harg3 off2_zero, Cert.Lib.WholeStore.readAt_whole harg4 off2_zero, Cert.Lib.WholeStore.readAt_whole harg6 off2_zero, Cert.Lib.WholeStore.readCov_whole arg6.view off2_zero]

set_option maxHeartbeats 2000000 in
/-- A vocabulary tile strictly between the first and the last: the product of the two blocks is added to what the
    accumulator held; the output block's buffer is left as found. -/
theorem runB (c : Dev nD) (i : grid0.Coords) (arg2 : Memref sig .tc .vmem S512x1280 .f32) (harg2 : arg2.IsWhole) (arg3 : Memref sig .tc .vmem S1280x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole)
    (hc0 : ¬condZ i) (hc1 : ¬condL i)
    (x0 : Vec F S512x1280 .f32) (x1 : Vec F S1280x2048 .bf16) (x2 : Vec F S1x2048 .f32) (xs : Vec F S512x2048 .f32) (xi3 : Vec F S512x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 x0 xs x1)) -∗ K ⟨⟩))
      ⊢ wp frame (wpE (defs₀ (F := F)) Variants.none c none) E (cc0__h_kernel i arg2 harg2 arg3 harg3 arg4 harg4 arg5 harg5 arg6 harg6) K := by
  simp only [cc0__h_kernel_eq_skeleton]; unfold cc0__h_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  skip
  refine (Cert.Lib.WholeStore.read_after_whole_store arg6.view _ off2_zero _ _ _).trans ?_
  simp only [Cert.Lib.WholeStore.readAt_whole harg2 off2_zero, Cert.Lib.WholeStore.readAt_whole harg3 off2_zero, Cert.Lib.WholeStore.readAt_whole harg4 off2_zero, Cert.Lib.WholeStore.readAt_whole harg6 off2_zero, Cert.Lib.WholeStore.readCov_whole arg6.view off2_zero]

set_option maxHeartbeats 2000000 in
/-- The last vocabulary tile: the product is added as before, and the output block is stored: tanh of the
    accumulator plus the bias row repeated down the rows. -/
theorem runC (c : Dev nD) (i : grid0.Coords) (arg2 : Memref sig .tc .vmem S512x1280 .f32) (harg2 : arg2.IsWhole) (arg3 : Memref sig .tc .vmem S1280x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole)
    (hc0 : ¬condZ i) (hc1 : condL i)
    (x0 : Vec F S512x1280 .f32) (x1 : Vec F S1280x2048 .bf16) (x2 : Vec F S1x2048 .f32) (xs : Vec F S512x2048 .f32) (xi3 : Vec F S512x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 xs x1) x2) ∗ owns (c : Thread nD τ) arg6 fullShare (k0_pay2 x0 xs x1)) -∗ K ⟨⟩))
      ⊢ wp frame (wpE (defs₀ (F := F)) Variants.none c none) E (cc0__h_kernel i arg2 harg2 arg3 harg3 arg4 harg4 arg5 harg5 arg6 harg6) K := by
  simp only [cc0__h_kernel_eq_skeleton]; unfold cc0__h_kernel_skel
  unfold owns
  iintro ⟨⟨%f0, %hf0, H0⟩, ⟨%f1, %hf1, H1⟩, ⟨%f2, %hf2, H2⟩, ⟨%d3, %f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    refine (Cert.Lib.WholeStore.read_after_whole_store arg5.view _ off2_zero _ _ _).trans ?_
    simp only [Cert.Lib.WholeStore.readAt_whole harg2 off2_zero, Cert.Lib.WholeStore.readAt_whole harg3 off2_zero, Cert.Lib.WholeStore.readAt_whole harg4 off2_zero, Cert.Lib.WholeStore.readAt_whole harg6 off2_zero, Cert.Lib.WholeStore.readCov_whole arg6.view off2_zero]
  iexists _; isplitr
  swap; · iexact HS
  ipureintro
  sl_unfold_run_names
  refine (Cert.Lib.WholeStore.read_after_whole_store arg6.view _ off2_zero _ _ _).trans ?_
  simp only [Cert.Lib.WholeStore.readAt_whole harg2 off2_zero, Cert.Lib.WholeStore.readAt_whole harg3 off2_zero, Cert.Lib.WholeStore.readAt_whole harg4 off2_zero, Cert.Lib.WholeStore.readAt_whole harg6 off2_zero, Cert.Lib.WholeStore.readCov_whole arg6.view off2_zero]

/-! ## The accumulator after each point -/

/-- What the scratch accumulator holds after the body at position `n`: at a point whose vocabulary tile is 0, the
    product of the point's two blocks added to zero; at any other point, that product added to what the point before
    left. -/
def accAt (c : Dev nD) : (n : ℕ) → n < cfg0.N → Vec F S512x2048 .f32
  | 0, hn => k0_pay2 (iblk0 V c 0 ⟨0, hn⟩) (k0_pay1 (F := F)) (iblk0 V c 1 ⟨0, hn⟩)
  | n + 1, hn =>
    if (n + 1) % 25 = 0 then k0_pay2 (iblk0 V c 0 ⟨n + 1, hn⟩) (k0_pay1 (F := F)) (iblk0 V c 1 ⟨n + 1, hn⟩)
    else k0_pay2 (iblk0 V c 0 ⟨n + 1, hn⟩) (accAt c n (Nat.lt_of_succ_lt hn)) (iblk0 V c 1 ⟨n + 1, hn⟩)

/-- At a point of vocabulary tile 0. -/
theorem accAt_first (c : Dev nD) (t : Fin cfg0.N) (h0 : t.val % 25 = 0) :
    accAt V c t.val t.isLt = k0_pay2 (iblk0 V c 0 t) (k0_pay1 (F := F)) (iblk0 V c 1 t) := by
  obtain ⟨n, hn⟩ := t
  cases n with
  | zero => rfl
  | succ n => exact if_pos h0

/-- At any other point. -/
theorem accAt_next (c : Dev nD) (t : Fin cfg0.N) (h0 : ¬t.val % 25 = 0) :
    accAt V c t.val t.isLt
      = k0_pay2 (iblk0 V c 0 t) (accAt V c (t.val - 1) (Nat.lt_of_le_of_lt (Nat.sub_le _ _) t.isLt)) (iblk0 V c 1 t) := by
  obtain ⟨n, hn⟩ := t
  cases n with
  | zero => exact absurd (Nat.zero_mod _) h0
  | succ n => exact if_neg h0

/-! ## The region's invariant -/

/-- The scoped buffers of the core that are neither a staging buffer of this region nor its scratch: the second
    region's eight staging buffers, each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Every scoped buffer that is no staging buffer of this region at some contents, with the generator register at some
    state: the scratch accumulator owned at some contents, the rest, the register. -/
theorem PhiA0_eq (c : Dev nD) :
    (Pipeline.ΦA spec0 c : sProp 𝕄)
      = iprop(iprop((∃ d, owns (c : Thread nD τ) scM fullShare d) ∗ otherScoped c) ∗ (∃ r, prngReg c r)) := by
  unfold Pipeline.ΦA otherScoped; rw [scopedRest0_eq]; simp only [scM, owns_whole]; try rfl

/-- The invariant before position `n`: before the first point, every such scoped buffer at anything; afterwards the
    accumulator at what the point before left in it, the rest at anything. -/
def PhiS (c : Dev nD) : (n : ℕ) → n ≤ cfg0.N → sProp 𝕄
  | 0, _ => Pipeline.ΦA spec0 c
  | n + 1, hn => iprop(iprop(owns (c : Thread nD τ) scM fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ otherScoped c) ∗ (∃ r, prngReg c r)) := by
  cases n with
  | zero => exact absurd rfl hz
  | succ n => rfl

/-! ## The proof data -/

/-- The arrays as the region finds them; after the body at a point each input's buffer at its block and the output's
    at tanh of the accumulator plus the bias row (consulted only at the last vocabulary tile, where the body stores it);
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt V c t.val t.isLt) (iblk0 V c 2 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (accAt V c t.val t.isLt) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks. The point's vocabulary tile decides the case. The
    invariant hands the body the accumulator at what the point before left (at anything, before the first point)
    and takes it back at this point's contents; the other scoped buffers and the generator register pass through;
    away from the last vocabulary tile the output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 200 := lt_of_lt_of_eq t.isLt (show cfg0.N = 200 from N_0)
  rw [show (dat0 V c).leavesExact 0 t = owns (c : Thread nD τ) (st0_0 t) fullShare ((dat0 V c).after 0 t) from by
      unfold Dat.leavesExact; rw [live0_0 t], after0_0]
  rw [show (dat0 V c).leavesExact 1 t = owns (c : Thread nD τ) (st0_1 t) fullShare ((dat0 V c).after 1 t) from by
      unfold Dat.leavesExact; rw [live0_1 t], after0_1]
  rw [show (dat0 V c).leavesExact 2 t = owns (c : Thread nD τ) (st0_2 t) fullShare ((dat0 V c).after 2 t) from by
      unfold Dat.leavesExact; rw [live0_2 t], after0_2]
  by_cases h0 : t.val % 25 = 0
  · have hZ : condZ (grid0.coords t) := (hcondZ t).mpr h0
    have hL : ¬condL (grid0.coords t) := fun h => by have := (hcondL t).mp h; omega
    rw [Dat.leavesExact_idle (dat0 V c) 3 t (idle0_3 t hL) (noFlush0_3 t hL), accAt_first V c t h0]
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩, ⟨%d3, H3⟩⟩
      iapply (runA c (grid0.coords t) _ _ _ _ _ _ _ _ _ _ hZ hL (iblk0 V c 0 t) (iblk0 V c 1 t) (iblk0 V c 2 t) (k0_pay1 (F := F)) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists d3; iexact H3
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩⟩
      iapply (runA c (grid0.coords t) _ _ _ _ _ _ _ _ _ _ hZ hL (iblk0 V c 0 t) (iblk0 V c 1 t) (iblk0 V c 2 t) (k0_pay1 (F := F)) ((dat0 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists d3; iexact H3
  · have hZ : ¬condZ (grid0.coords t) := fun h => h0 ((hcondZ t).mp h)
    have hz : t.val ≠ 0 := fun h => h0 (by rw [h])
    rw [accAt_next V c t h0, PhiS_castSucc V c t, PhiS_pos V c _ _ hz]
    by_cases h1 : t.val % 25 = 24
    · have hL : condL (grid0.coords t) := (hcondL t).mpr h1
      rw [show (dat0 V c).leavesExact 3 t = owns (c : Thread nD τ) (st0_3 t) fullShare ((dat0 V c).after 3 t) from by
        unfold Dat.leavesExact; rw [live0_3 t hL], after0_3, accAt_next V c t h0]
      iintro ⟨⟨⟨HS, Hr⟩, Hg⟩, Ho, ⟨%d0, H0⟩, ⟨%d1, H1⟩, ⟨%d2, H2⟩, ⟨%d3, H3⟩⟩
      iapply (runC c (grid0.coords t) _ _ _ _ _ _ _ _ _ _ hZ hL (iblk0 V c 0 t) (iblk0 V c 1 t) (iblk0 V c 2 t) _ (k0_pay1 (F := F)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hL : ¬condL (grid0.coords t) := fun h => h1 ((hcondL t).mp h)
      rw [Dat.leavesExact_idle (dat0 V c) 3 t (idle0_3 t hL) (noFlush0_3 t hL)]
      iintro ⟨⟨⟨HS, Hr⟩, Hg⟩, Ho, ⟨%d0, H0⟩, ⟨%d1, H1⟩, ⟨%d2, H2⟩, ⟨%d3, H3⟩⟩
      iapply (runB c (grid0.coords t) _ _ _ _ _ _ _ _ _ _ hZ hL (iblk0 V c 0 t) (iblk0 V c 1 t) (iblk0 V c 2 t) _ ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists d3; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the same back: the accumulator's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 200 := N_0; omega), PhiA0_eq]
  iintro ⟨⟨HS, Hr⟩, Hg⟩
  isplitl [HS Hr]
  · isplitl [HS]
    · iexists _; iexact HS
    iexact Hr
  iexact Hg

end Cert.KernelIdeal.Hand

end
-- ==== Proof.KernelIdeal.Region1.lean ====
import proofs.«177360_j40604620816471_2_alg».proof.Proof.Gen.KernelIdeal.Launch
import proofs.«177360_j40604620816471_2_alg».proof.Proof.Gen.KernelIdeal.Skeleton
import proofs.«177360_j40604620816471_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«177360_j40604620816471_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second kernel region: logits = h·Why + by, one output tile per grid point

The grid is 8 row tiles by 25 vocabulary tiles. At every point the body multiplies the 512×2048 block of h by the
2048×1280 block of Why into a zero accumulator, adds the 1×1280 block of the bias repeated down the rows, and stores
the 512×1280 output block whole. Nothing is kept between points. -/

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where the block is not
    fetched its index has not moved since the point before. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-shape rectangle's offsets are zero. -/
theorem off2_zero' : (![0, 0] : Fin 2 → Nat) = fun _ => 0 := funext fun a => by
  match a with
  | ⟨0, _⟩ => rfl
  | ⟨1, _⟩ => rfl

/-! ## The body on whole memrefs -/

set_option maxHeartbeats 2000000 in
/-- The body, given the three input blocks, stores the product of the first two plus the third repeated down the rows
    into the output block's buffer and leaves the inputs as they were. -/
theorem run1 (c : Dev nD) (i : grid1.Coords) (arg2 : Memref sig .tc .vmem S512x2048 .f32) (harg2 : arg2.IsWhole) (arg3 : Memref sig .tc .vmem S2048x1280 .bf16) (harg3 : arg3.IsWhole) (arg4 : Memref sig .tc .vmem S1x1280 .f32) (harg4 : arg4.IsWhole) (arg5 : Memref sig .tc .vmem S512x1280 .f32) (harg5 : arg5.IsWhole)
    (x0 : Vec F S512x2048 .f32) (x1 : Vec F S2048x1280 .bf16) (x2 : Vec F S1x1280 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 x0 x1 x2)) -∗ K ⟨⟩))
      ⊢ wp frame (wpE (defs₀ (F := F)) Variants.none c none) E (cc1__logits_kernel i arg2 harg2 arg3 harg3 arg4 harg4 arg5 harg5) K := by
  simp only [cc1__logits_kernel_eq_skeleton]; unfold cc1__logits_kernel_skel
  unfold owns
  iintro ⟨⟨%f0, %hf0, H0⟩, ⟨%f1, %hf1, H1⟩, ⟨%f2, %hf2, H2⟩, ⟨%xi3, %f3, %hf3, H3⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  refine (Cert.Lib.WholeStore.read_after_whole_store arg5.view _ off2_zero' _ _ _).trans ?_
  simp only [Cert.Lib.WholeStore.readAt_whole harg2 off2_zero', Cert.Lib.WholeStore.readAt_whole harg3 off2_zero', Cert.Lib.WholeStore.readAt_whole harg4 off2_zero']

/-! ## The proof data -/

/-- The arrays as the region finds them; after the body at a point each input's buffer at its block and the output's
    at the body's result on the point's three input blocks; the invariant every scoped buffer that is no staging
    buffer of this region at some contents and the generator register at some state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (run1 c (grid1.coords t) _ _ _ _ _ _ _ _ (iblk1 V c 0 t) (iblk1 V c 1 t) (iblk1 V c 2 t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
import proofs.«177360_j40604620816471_2_alg».proof.Proof.Gen.KernelIdeal.Launch
import proofs.«177360_j40604620816471_2_alg».proof.Proof.Gen.KernelIdeal.Skeleton
import proofs.«177360_j40604620816471_2_alg».proof.Proof.Gen.KernelIdeal.Points
import proofs.«177360_j40604620816471_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.StableHlo.Run
import proofs.«177360_j40604620816471_2_alg».proof.Proof.KernelIdeal.Region0
import proofs.«177360_j40604620816471_2_alg».proof.Proof.KernelIdeal.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program

The program is five stretches in order: five host operations, the first kernel region, one host operation, the second
kernel region, one host operation. Each stretch is entered from what the one before it left. The contents of every
unscoped buffer at the six boundaries are written down as a fold from the launch memory; the two regions are entered
and left through those contents; and the last boundary's contents are read against every final memory.

## The buffers' contents at each boundary -/

/-- A core's buffers at launch. -/
abbrev W0 : Dev nD → Valuation τ sig (Elt F) := fun c b => (s₀ m ρ).mem ((c : Dev nD), b)
/-- After the first five host operations: what the first region is entered from. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- When the first region is left: each of its four arrays at what the region's write-backs leave in it (an input
    array as entered), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operation between the regions: what the second region is entered from. -/
abbrev W3 : Dev nD → Valuation τ sig (Elt F) := fun c => StableHlo.after hostOps1 (W2 m ρ c)
/-- The same, read at the core's own references. -/
abbrev V3 : (c : Dev nD) → (b : Ref sig .tc) → Buf (Elt F) ((c : Thread nD τ).loc b) := fun c b => W3 m ρ c b
/-- When the second region is left: each of its four arrays at what the region's write-backs leave in it, every other
    buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the core's own references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host operation: what the program returns with. -/
abbrev W5 : Dev nD → Valuation τ sig (Elt F) := fun c => StableHlo.after hostOps2 (W4 m ρ c)

/-! ## Reading a buffer back through the fold

A host stretch leaves alone every buffer it does not write; a region leaves alone every buffer that is none of its
arrays, and an input array too. -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- A buffer no stretch writes and no region has as an array ends as launched. -/
theorem W5_untouched (c : Dev nD) (r : Ref sig .tc) (h0 : r ∉ hostOps0_W) (h1 : r ∉ hostOps1_W) (h2 : r ∉ hostOps2_W)
    (hr0 : ∀ w, Pipeline.arrRef spec0 w ≠ r) (hr1 : ∀ w, Pipeline.arrRef spec1 w ≠ r) :
    W5 m ρ c (Proc.devRef .tc r) = m ((c : Thread nD τ).loc r) :=
  (W5_of m ρ c r h2).trans <| (W4_of_ne m ρ c r hr1).trans <| (W3_of m ρ c r h1).trans <|
    (W2_of_ne m ρ c r hr0).trans <| (W1_of m ρ c r h0).trans rfl

/-! ### The arguments end as launched -/

theorem W5_main_arg0 (c : Dev nD) : W5 m ρ c (Proc.devRef .tc main_arg0) = m ((c : Thread nD τ).loc main_arg0) :=
  W5_untouched m ρ c main_arg0 (by decide) (by decide) (by decide) (by decide) (by decide)
/-- The first region reads this argument through its first input window. -/
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <|
    (W3_of m ρ c main_arg1 (by decide)).trans <|
    ((W2_arr m ρ c 0).trans (((dat0 (V1 m ρ) c).arrAt_in 0 rfl _).trans (A_eq0 (V1 m ρ) c 0))).trans <|
    (W1_of m ρ c main_arg1 (by decide)).trans rfl
theorem W5_main_arg2 (c : Dev nD) : W5 m ρ c (Proc.devRef .tc main_arg2) = m ((c : Thread nD τ).loc main_arg2) :=
  W5_untouched m ρ c main_arg2 (by decide) (by decide) (by decide) (by decide) (by decide)
theorem W5_main_arg3 (c : Dev nD) : W5 m ρ c (Proc.devRef .tc main_arg3) = m ((c : Thread nD τ).loc main_arg3) :=
  W5_untouched m ρ c main_arg3 (by decide) (by decide) (by decide) (by decide) (by decide)
theorem W5_main_arg4 (c : Dev nD) : W5 m ρ c (Proc.devRef .tc main_arg4) = m ((c : Thread nD τ).loc main_arg4) :=
  W5_untouched m ρ c main_arg4 (by decide) (by decide) (by decide) (by decide) (by decide)
theorem W5_main_arg5 (c : Dev nD) : W5 m ρ c (Proc.devRef .tc main_arg5) = m ((c : Thread nD τ).loc main_arg5) :=
  W5_untouched m ρ c main_arg5 (by decide) (by decide) (by decide) (by decide) (by decide)
theorem W5_main_arg6 (c : Dev nD) : W5 m ρ c (Proc.devRef .tc main_arg6) = m ((c : Thread nD τ).loc main_arg6) :=
  W5_untouched m ρ c main_arg6 (by decide) (by decide) (by decide) (by decide) (by decide)

/-! ### What the first region is entered from -/

theorem V1_main_arg1 (c : Dev nD) : V1 m ρ c main_arg1 = m ((c : Thread nD τ).loc main_arg1) :=
  (W1_of m ρ c main_arg1 (by decide)).trans rfl

theorem V1_main_v3 (c : Dev nD) :
    V1 m ρ c main_v3 = truncf .bf16 (m ((c : Thread nD τ).loc main_arg2)) bitsLt_bf16_f32 := by
  show StableHlo.after hostOps0 (W0 m ρ c) (Proc.devRef .tc main_v3) = _
  after_results
  try rfl

theorem V1_main_v2 (c : Dev nD) :
    V1 m ρ c main_v2
      = addf (Host.dotGeneral dot_S1x2048_S2048x2048_S1x2048_1_0_0_1_n_n none (m ((c : Thread nD τ).loc main_arg0))
            (m ((c : Thread nD τ).loc main_arg3)))
          (broadcastInDim S1x2048 ![1] bcast_S2048_S1x2048_1 (m ((c : Thread nD τ).loc main_arg5))) := by
  show StableHlo.after hostOps0 (W0 m ρ c) (Proc.devRef .tc main_v2) = _
  after_results
  try rfl

/-! ### What the second region is entered from -/

/-- Its first input array is the first region's output array as that region left it. -/
theorem V3_main_v5 (c : Dev nD) : V3 m ρ c main_v5 = (dat0 (V1 m ρ) c).arrAt 3 cfg0.N :=
  (W3_of m ρ c main_v5 (by decide)).trans (W2_arr m ρ c 3)

theorem V3_main_v4 (c : Dev nD) :
    V3 m ρ c main_v4 = truncf .bf16 (m ((c : Thread nD τ).loc main_arg4)) bitsLt_bf16_f32 := by
  refine (W3_of m ρ c main_v4 (by decide)).trans <| (W2_of_ne m ρ c main_v4 (by decide)).trans ?_
  show StableHlo.after hostOps0 (W0 m ρ c) (Proc.devRef .tc main_v4) = _
  after_results
  try rfl

/-- The seventh argument, just before the host operation between the regions, is as launched. -/
theorem W2_main_arg6 (c : Dev nD) : W2 m ρ c (Proc.devRef .tc main_arg6) = m ((c : Thread nD τ).loc main_arg6) :=
  (W2_of_ne m ρ c main_arg6 (by decide)).trans <| (W1_of m ρ c main_arg6 (by decide)).trans rfl

theorem V3_main_v6 (c : Dev nD) :
    V3 m ρ c main_v6 = fun i => shapeCast S1x32000 (m ((c : Thread nD τ).loc main_arg6)) shapeCasts_S32000_S1x32000 i := by
  show StableHlo.after hostOps1 (W2 m ρ c) (Proc.devRef .tc main_v6) = _
  after_results
  rw [W2_main_arg6]
  try rfl

/-! ### The results -/

/-- The second region's output array, as that region left it. -/
theorem W5_main_v7 (c : Dev nD) : W5 m ρ c (Proc.devRef .tc main_v7) = (dat1 (V3 m ρ) c).arrAt 3 cfg1.N :=
  (W5_of m ρ c main_v7 (by decide)).trans (W4_arr m ρ c 3)

/-- The first region's output array when the last host operation reads it: the second region only reads it. -/
theorem W4_main_v5 (c : Dev nD) : W4 m ρ c (Proc.devRef .tc main_v5) = (dat0 (V1 m ρ) c).arrAt 3 cfg0.N :=
  (W4_arr m ρ c 0).trans <| ((dat1 (V3 m ρ) c).arrAt_in 0 rfl _).trans <| (A_eq1 (V3 m ρ) c 0).trans (V3_main_v5 m ρ c)

/-- The last row of the first region's output array. -/
theorem W5_main_v8 (c : Dev nD) :
    W5 m ρ c (Proc.devRef .tc main_v8)
      = extractStridedSlice S1x2048 ![4095, 0] ((dat0 (V1 m ρ) c).arrAt 3 cfg0.N) slices_S4096x2048_S1x2048_4095_0 := by
  show StableHlo.after hostOps2 (W4 m ρ c) (Proc.devRef .tc main_v8) = _
  after_results
  rw [W4_main_v5]

/-! ## The proof data of both regions and the thread state between stretches -/

/-- No pipeline has a prefetched table. -/
abbrev adm : (p : Fin 2) → (pcfgs (F := F) p).Adm := fun p => (cfgs p).toPCfg_adm
/-- Both regions' proof data, each at the contents its region is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What a core holds beside its buffers at every boundary: its generator register at some state, and that it owes
    nothing. -/
abbrev R (c : Dev nD) : sProp 𝕄 := iprop((∃ r, prngReg c r) ∗ ∃ W, owes (c : Thread nD τ) (0 : CellTallies nD τ sig Unit) W)
/-- A stretch of host operations as a segment: from every unscoped buffer at the given contents to every unscoped
    buffer at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, beside which the core owes nothing: every unscoped buffer at the last boundary's contents,
    the generator register at some state. -/
abbrev Tₙ (c : Dev nD) : sProp 𝕄 := iprop(StableHlo.held (c : Thread nD τ) (Pipeline.ucRefs τ sig) (W5 m ρ c) ∗ ∃ r, prngReg c r)

/-- What the last host stretch leaves is the last thread state beside the core owing nothing. -/
theorem last_link (c : Dev nD) :
    (iprop(StableHlo.held (c : Thread nD τ) (Pipeline.ucRefs τ sig) (W5 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The first region: entered from every unscoped buffer at W1, left at W2. Its four arrays are split out of the
    unscoped buffers and put back at the contents the region leaves; the generator register goes into the region's
    invariant with the scoped buffers and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W3, left at W4, in the same way; its invariant is the
    scoped buffers at some contents and the generator register at some state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its five segments, and the launch -/

/-- The five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of the five segments. -/
theorem main_run (c : Dev nD) : main (F := F) c = Pipeline.Seg.run (segs m ρ) := (main_chain c).trans (by chain_rfl)

set_option backward.isDefEq.respectTransparency.types false in
/-- From any launch memory with zero counters every weakly fair execution of the program terminates, nothing
    faulting, and in every final memory every unscoped buffer of every core holds the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

end Cert.KernelIdeal.Hand

end
-- ==== Proof.Frames.lean ====
import proofs.«177360_j40604620816471_2_alg».proof.Defs
import proofs.«177360_j40604620816471_2_alg».proof.Proof.Gen.Kernel
import proofs.«177360_j40604620816471_2_alg».proof.Proof.Gen.KernelIdeal
import proofs.«177360_j40604620816471_2_alg».proof.Proof.Gen.Pre_finite_inputs
import proofs.«177360_j40604620816471_2_alg».proof.Proof.Kernel.Run
import proofs.«177360_j40604620816471_2_alg».proof.Proof.KernelIdeal.Run

noncomputable section

namespace Cert.Proof.Frames

open Idealize.ShloMosaic Idealize.SL.Sem

/-! # The two kernel programs run and leave their arguments as launched

The run of the program, composed from its five stretches at any float instance, read at the word-level instance and
at the exact one. The precondition is not needed: the program terminates without fault from every launch memory. -/

/-- The word-level program. -/
theorem frame_k : Cert.frame_Kernel (hKernel := Cert.Kernel.Gen.facts) (hPre_finite_inputs := Cert.Pre_finite_inputs.Gen.facts) :=
  fun m ρ _ => Cert.Kernel.Hand.frame (F := Bits) m ρ

/-- The program at exact arithmetic. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

end Cert.Proof.Frames

end
-- ==== Proof.Spec.lean ====
/-
  What both programs compute, entry by entry, at exact arithmetic.

  With hc(q) = Σₖ hprev(0,k)·Whh(k,q) + bh(q), the hidden state is
      h(p,q) = tanh( Σᵥ x(p,v)·Wxh(v,q) + hc(q) )          (p < 4096, q < 2048, v < 32000)
  and the logits are
      logits(p,r) = Σ_q h(p,q)·Why(q,r) + by(r)            (r < 32000).
  The two results are the logits and the last row of the hidden state. Sums are over the extended reals, where
  addition is commutative and associative, so no finiteness is needed to regroup them.
-/
import Idealize.ShloMosaic.PureOps.Ideal
import Idealize.ShloMosaic.Lib.ValueIdx

noncomputable section

namespace Cert.Spec

open Idealize.ShloMosaic Idealize.ShloMosaic.ValueIdx

/-- The recurrent contribution, one row: hc(q) = Σₖ hprev(0,k)·Whh(k,q) + bh(q). -/
def hcontrib (hprev : (⟨2, ![1, 2048]⟩ : Shape).Idx → EReal) (whh : (⟨2, ![2048, 2048]⟩ : Shape).Idx → EReal)
    (bh : (⟨1, ![2048]⟩ : Shape).Idx → EReal) (q : Fin 2048) : EReal :=
  (∑ k : Fin 2048, hprev (ix2 (0 : Fin 1) k) * whh (ix2 k q)) + bh (ix1 q)

/-- The hidden state at (p, q), given the recurrent row `hc`. -/
def hid (x : (⟨2, ![4096, 32000]⟩ : Shape).Idx → EReal) (wxh : (⟨2, ![32000, 2048]⟩ : Shape).Idx → EReal)
    (hc : Fin 2048 → EReal) (p : Fin 4096) (q : Fin 2048) : EReal :=
  Ideal.tanh ((∑ v : Fin 32000, x (ix2 p v) * wxh (ix2 v q)) + hc q)

/-- The logits at (p, r), given the hidden state. -/
def logit (h : Fin 4096 → Fin 2048 → EReal) (why : (⟨2, ![2048, 32000]⟩ : Shape).Idx → EReal)
    (b : (⟨1, ![32000]⟩ : Shape).Idx → EReal) (p : Fin 4096) (r : Fin 32000) : EReal :=
  (∑ q : Fin 2048, h p q * why (ix2 q r)) + b (ix1 r)

section
variable (hprev : (⟨2, ![1, 2048]⟩ : Shape).Idx → EReal) (x : (⟨2, ![4096, 32000]⟩ : Shape).Idx → EReal)
  (wxh : (⟨2, ![32000, 2048]⟩ : Shape).Idx → EReal) (whh : (⟨2, ![2048, 2048]⟩ : Shape).Idx → EReal)
  (why : (⟨2, ![2048, 32000]⟩ : Shape).Idx → EReal) (bh : (⟨1, ![2048]⟩ : Shape).Idx → EReal)
  (b : (⟨1, ![32000]⟩ : Shape).Idx → EReal)

/-- The hidden state as a function of the seven arguments. -/
def H : Fin 4096 → Fin 2048 → EReal := hid x wxh (hcontrib hprev whh bh)

/-- The hidden state as an array. -/
def hidden : (⟨2, ![4096, 2048]⟩ : Shape).Idx → EReal := fun j => H hprev x wxh whh bh (j 0) (j 1)

/-- The first result: the logits, as an array. -/
def logits : (⟨2, ![4096, 32000]⟩ : Shape).Idx → EReal :=
  fun j => logit (H hprev x wxh whh bh) why b (j 0) (j 1)

/-- The second result: the last row of the hidden state, as a 1×2048 array. -/
def hlast : (⟨2, ![1, 2048]⟩ : Shape).Idx → EReal :=
  fun j => H hprev x wxh whh bh (4095 : Fin 4096) (j 1)
end

end Cert.Spec

end
-- ==== Proof.RefIsSpec.lean ====
/-
  The reference program computes the specification. At exact arithmetic every float is an extended real, the host's
  dot_general an honest sum over the contracted axis, addf the sum and tanh the extended-real tanh; so, entry by entry,
      %2(0,q)  = Σₖ hprev(0,k)·Whh(k,q) + bh(q)                     (the recurrent row hc)
      %6(p,q)  = tanh( Σᵥ x(p,v)·Wxh(v,q) + hc(q) )                 (the hidden state h)
      %10(p,r) = Σ_q h(p,q)·Why(q,r) + by(r)                        (the logits)
      %11(0,q) = h(4095,q)                                          (the last row of h).
  The sums are already written in the specification's order, so each line is an unfolding: the broadcasts and the slice
  only move the index, which is followed coordinate by coordinate.
-/
import proofs.«177360_j40604620816471_2_alg».proof.Defs
import proofs.«177360_j40604620816471_2_alg».proof.Proof.Gen.ReferenceIdeal
import proofs.«177360_j40604620816471_2_alg».proof.Proof.Gen.Pre_finite_inputs
import proofs.«177360_j40604620816471_2_alg».proof.Proof.Gen.ReferenceIdeal.Read
import proofs.«177360_j40604620816471_2_alg».proof.Proof.Spec
import Idealize.ShloMosaic.Lib.ValueIdx
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem

/-! ## The composed index functions at coordinates -/

theorem lidx_v0 (q k : Fin 2048) : lidx_main_v0 (ix2 (0 : Fin 1) q) k = ix2 (0 : Fin 1) k :=
  funext fun a => Fin.ext (by match a with | ⟨0, _⟩ => rfl | ⟨1, _⟩ => rfl)
theorem ridx_v0 (q k : Fin 2048) : ridx_main_v0 (ix2 (0 : Fin 1) q) k = ix2 k q :=
  funext fun a => Fin.ext (by match a with | ⟨0, _⟩ => rfl | ⟨1, _⟩ => rfl)
theorem idx_v1 (q : Fin 2048) : idx_main_v1 (ix2 (0 : Fin 1) q) = ix1 q :=
  funext fun a => Fin.ext (by match a with | ⟨0, _⟩ => rfl)
theorem lidx_v3 (p : Fin 4096) (q : Fin 2048) (v : Fin 32000) : lidx_main_v3 (ix2 p q) v = ix2 p v :=
  funext fun a => Fin.ext (by match a with | ⟨0, _⟩ => rfl | ⟨1, _⟩ => rfl)
theorem ridx_v3 (p : Fin 4096) (q : Fin 2048) (v : Fin 32000) : ridx_main_v3 (ix2 p q) v = ix2 v q :=
  funext fun a => Fin.ext (by match a with | ⟨0, _⟩ => rfl | ⟨1, _⟩ => rfl)
theorem idx_v4 (p : Fin 4096) (q : Fin 2048) : idx_main_v4 (ix2 p q) = ix2 (0 : Fin 1) q :=
  funext fun a => Fin.ext (by match a with | ⟨0, _⟩ => rfl | ⟨1, _⟩ => rfl)
theorem lidx_v7 (p : Fin 4096) (r : Fin 32000) (q : Fin 2048) : lidx_main_v7 (ix2 p r) q = ix2 p q :=
  funext fun a => Fin.ext (by match a with | ⟨0, _⟩ => rfl | ⟨1, _⟩ => rfl)
theorem ridx_v7 (p : Fin 4096) (r : Fin 32000) (q : Fin 2048) : ridx_main_v7 (ix2 p r) q = ix2 q r :=
  funext fun a => Fin.ext (by match a with | ⟨0, _⟩ => rfl | ⟨1, _⟩ => rfl)
theorem idx_v9 (p : Fin 4096) (r : Fin 32000) : idx_main_v9 (ix2 p r) = ix2 (0 : Fin 1) r :=
  funext fun a => Fin.ext (by match a with | ⟨0, _⟩ => rfl | ⟨1, _⟩ => rfl)
theorem idx_v8 (r : Fin 32000) : idx_main_v8 (ix2 (0 : Fin 1) r) = ix1 r :=
  funext fun a => Fin.ext (by match a with | ⟨0, _⟩ => rfl)
theorem idx_v11 (q : Fin 2048) : idx_main_v11 (ix2 (0 : Fin 1) q) = ix2 (4095 : Fin 4096) q :=
  funext fun a => Fin.ext (by match a with | ⟨0, _⟩ => rfl | ⟨1, _⟩ => rfl)

/-! ## The stages at coordinates -/

section
variable (a0 : (⟨S1x2048, .f32⟩ : BufTy).Contents (Elt Ideal)) (a1 : (⟨S4096x32000, .f32⟩ : BufTy).Contents (Elt Ideal))
  (a2 : (⟨S32000x2048, .f32⟩ : BufTy).Contents (Elt Ideal)) (a3 : (⟨S2048x2048, .f32⟩ : BufTy).Contents (Elt Ideal))
  (a4 : (⟨S2048x32000, .f32⟩ : BufTy).Contents (Elt Ideal)) (a5 : (⟨S2048, .f32⟩ : BufTy).Contents (Elt Ideal))
  (a6 : (⟨S32000, .f32⟩ : BufTy).Contents (Elt Ideal))

/-- The recurrent row: hprev · Whh + bh at column q. -/
theorem hc_apply (q : Fin 2048) :
    val_main_v2 (F := Ideal) a0 a3 a5 (ix2 (0 : Fin 1) q) = Cert.Spec.hcontrib a0 a3 a5 q := by
  rw [val_main_v2_apply, val_main_v0_apply, val_main_v1_apply]
  simp only [lidx_v0, ridx_v0, idx_v1, Ideal.addf_def]
  rfl

/-- The hidden state at (p, q): tanh of the row of x against the column of Wxh, plus the recurrent row. -/
theorem h_apply (p : Fin 4096) (q : Fin 2048) :
    val_main_v6 (F := Ideal) a0 a1 a2 a3 a5 (ix2 p q) = Cert.Spec.H a0 a1 a2 a3 a5 p q := by
  rw [val_main_v6_apply, val_main_v5_apply, val_main_v3_apply, val_main_v4_apply, idx_v4, hc_apply]
  simp only [lidx_v3, ridx_v3, Ideal.addf_def, Ideal.hostUnary_tanh_def]
  rfl

/-- The logits at (p, r). -/
theorem logits_apply (p : Fin 4096) (r : Fin 32000) :
    val_main_v10 (F := Ideal) a0 a1 a2 a3 a4 a5 a6 (ix2 p r) = Cert.Spec.logits a0 a1 a2 a3 a4 a5 a6 (ix2 p r) := by
  rw [val_main_v10_apply, val_main_v7_apply, val_main_v9_apply, val_main_v8_apply, idx_v9, idx_v8]
  simp only [lidx_v7, ridx_v7, h_apply, Ideal.addf_def]
  rfl

/-- The last row of the hidden state at column q. -/
theorem hlast_apply (q : Fin 2048) :
    val_main_v11 (F := Ideal) a0 a1 a2 a3 a5 (ix2 (0 : Fin 1) q) = Cert.Spec.hlast a0 a1 a2 a3 a5 (ix2 (0 : Fin 1) q) := by
  rw [val_main_v11_apply, idx_v11, h_apply]
  rfl

/-- The first result of the reference is the logits of the specification. -/
theorem logits_eq : val_main_v10 (F := Ideal) a0 a1 a2 a3 a4 a5 a6 = Cert.Spec.logits a0 a1 a2 a3 a4 a5 a6 := by
  funext j
  obtain ⟨p, r, rfl⟩ : ∃ (p : Fin 4096) (r : Fin 32000), j = ix2 p r := ⟨j 0, j 1, eq_ix2 j⟩
  exact logits_apply a0 a1 a2 a3 a4 a5 a6 p r

/-- The second result of the reference is the last row of the hidden state of the specification. -/
theorem hlast_eq : val_main_v11 (F := Ideal) a0 a1 a2 a3 a5 = Cert.Spec.hlast a0 a1 a2 a3 a5 := by
  funext j
  obtain ⟨z, q, rfl⟩ : ∃ (z : Fin 1) (q : Fin 2048), j = ix2 z q := ⟨j 0, j 1, eq_ix2 j⟩
  obtain rfl : z = 0 := Subsingleton.elim _ _
  exact hlast_apply a0 a1 a2 a3 a5 q

end

/-! ## The run -/

/-- Every weakly fair execution of the reference terminates with its first result the logits of the specification,
    its second the last row of the hidden state, both as functions of the arguments' contents at the start, and the
    arguments unchanged. -/
theorem run_spec (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v10) = Cert.Spec.logits (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v11) = Cert.Spec.hlast (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run Cert.ReferenceIdeal.defs _ _).mono
    (fun _ h c => ⟨(h c).1.trans (logits_eq _ _ _ _ _ _ _), (h c).2.1.trans (hlast_eq _ _ _ _ _), (h c).2.2⟩)
    (Cert.ReferenceIdeal.Value.run (F := Ideal) m ρ)

/-- The reference runs and leaves its arguments as they were: its run with the two results dropped. -/
theorem frame_ri : Cert.frame_ReferenceIdeal := fun m ρ _ =>
  (θ_run Cert.ReferenceIdeal.defs _ _).mono (fun _ h c => (h c).2.2) (run_spec m ρ)

end Cert.ReferenceIdeal.RefValue

end
-- ==== Proof.KernelIdeal.Hidden.lean ====
/-
  The hidden-state array as a function of the three arrays the first kernel region reads.

  Entry (r, q) is tanh of the sum over the 32000 vocabulary positions v of x(r, v) · w(v, q), plus the bias row's
  entry in column q.
-/
import proofs.«177360_j40604620816471_2_alg».proof.KernelIdeal
import Idealize.ShloMosaic.PureOps.Ideal
import Idealize.ShloMosaic.Lib.ValueIdx

noncomputable section

namespace Cert.KernelIdeal.Hand

open Idealize.ShloMosaic Idealize.ShloMosaic.ValueIdx
open Cert.KernelIdeal

/-- The hidden state at row r, column q. -/
def hidAt (x : FVec Ideal S4096x32000 .f32) (w : FVec Ideal S32000x2048 .bf16) (hc : FVec Ideal S1x2048 .f32)
    (r : Fin 4096) (q : Fin 2048) : EReal :=
  Ideal.tanh ((∑ v : Fin 32000, x (ix2 r v) * w (ix2 v q)) + hc (ix2 (0 : Fin 1) q))

/-- The hidden state as an array. -/
def G0 (x : FVec Ideal S4096x32000 .f32) (w : FVec Ideal S32000x2048 .bf16) (hc : FVec Ideal S1x2048 .f32) :
    FVec Ideal S4096x2048 .f32 := fun j => hidAt x w hc (j 0) (j 1)

end Cert.KernelIdeal.Hand

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«177360_j40604620816471_2_alg».proof.Proof.LibDotEntry
import proofs.«177360_j40604620816471_2_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.KernelIdeal.Region1Value.lean ====
/-
  The value of the second kernel region at exact arithmetic: after it the logits array holds h·Why + by.

  The grid is 8 row tiles by 25 vocabulary tiles; point t = 25·i + j works on rows 512·i … 512·i + 511 and columns
  1280·j … 1280·j + 1279. There the body's result at entry (p, q) of its block is
      Σₖ h(512·i + p, k) · Why(k, 1280·j + q) + by(0, 1280·j + q),
  because the block of h at t is rows 512·i … of h, the block of Why is columns 1280·j … of Why, the bias block is the
  same columns of the bias, a product into a zero accumulator is the plain sum over the contracted axis, and the
  rounding of h to the narrower format is the identity on the extended reals. So every point writes back ITS BLOCK OF
  ONE function of the three arrays; the 200 blocks cover the array (entry (r, s) is in the block of point
  25·(r / 512) + s / 1280); hence the array ends holding that function.
-/
import proofs.«177360_j40604620816471_2_alg».proof.Proof.Gen.KernelIdeal.Launch
import proofs.«177360_j40604620816471_2_alg».proof.Proof.Gen.KernelIdeal.Skeleton
import proofs.«177360_j40604620816471_2_alg».proof.Proof.Gen.KernelIdeal.Points
import proofs.«177360_j40604620816471_2_alg».proof.Proof.KernelIdeal.Region1
import proofs.«177360_j40604620816471_2_alg».proof.Proof.LibDenseLayer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix2 eq_ix2)

/-! ## The body's result at an entry -/

/-- The second region's product contracts the left block's columns against the right block's rows. -/
theorem isMat1 : Cert.Lib.DenseLayer.IsMatProduct dot_S512x2048_S2048x1280_S512x1280_1_0_0_1_n_n :=
  ⟨rfl, rfl, rfl, rfl, rfl, rfl⟩

/-- Entry (p, q) of what the body stores: row p of the block of h against column q of the block of Why, plus the
    bias block at q. The rounding of h to the narrower format is the identity at exact arithmetic. -/
theorem k1_pay1_entry (x0 : FVec Ideal S512x2048 .f32) (x1 : FVec Ideal S2048x1280 .bf16) (x2 : FVec Ideal S1x1280 .f32)
    (p : Fin 512) (q : Fin 1280) :
    k1_pay1 (F := Ideal) x0 x1 x2 (ValueIdx.ix2 p q)
      = (∑ k : Fin 2048, x0 (ValueIdx.ix2 p k) * x1 (ValueIdx.ix2 k q)) + x2 (ValueIdx.ix2 (0 : Fin 1) q) := by
  unfold k1_pay1
  refine (ValueIdx.addf_apply _ _ _).trans ?_
  refine congrArg₂ (· + ·) ?_ ?_
  · refine (Cert.Lib.DenseLayer.matmul_entry isMat1 _ _ p q).trans ?_
    refine Finset.sum_congr rfl fun k _ => ?_
    rw [shapeCast_self, shapeCast_self]
    rfl
  · refine (ValueIdx.broadcastTo_1b_ab_apply _ _ p q).trans ?_
    rw [shapeCast_self]

/-! ## The logits as one function of the three arrays -/

/-- Entry (r, s) of h·Why + by. -/
def logitAt (h : FVec Ideal S4096x2048 .f32) (w : FVec Ideal S2048x32000 .bf16) (b : FVec Ideal S1x32000 .f32)
    (r : Fin 4096) (s : Fin 32000) : EReal :=
  (∑ k : Fin 2048, h (ix2 r k) * w (ix2 k s)) + b (ix2 (0 : Fin 1) s)

/-- h·Why + by as an array. -/
def G1 (h : FVec Ideal S4096x2048 .f32) (w : FVec Ideal S2048x32000 .bf16) (b : FVec Ideal S1x32000 .f32) :
    FVec Ideal S4096x32000 .f32 :=
  fun j => logitAt h w b (j 0) (j 1)

/-- The body's result at entry (p, q) of its block is entry (r, s) of the whole product, when row p of the block of h
    is row r of h, column q of the block of Why is column s of Why, and the bias block at q is the bias at s. -/
theorem block_entry1 (h : FVec Ideal S4096x2048 .f32) (w : FVec Ideal S2048x32000 .bf16) (b : FVec Ideal S1x32000 .f32)
    (x0 : FVec Ideal S512x2048 .f32) (x1 : FVec Ideal S2048x1280 .bf16) (x2 : FVec Ideal S1x1280 .f32)
    (r : Fin 4096) (s : Fin 32000) (p : Fin 512) (q : Fin 1280)
    (h0 : ∀ k : Fin 2048, x0 (ix2 p k) = h (ix2 r k)) (h1 : ∀ k : Fin 2048, x1 (ix2 k q) = w (ix2 k s))
    (h2 : x2 (ix2 (0 : Fin 1) q) = b (ix2 (0 : Fin 1) s)) :
    k1_pay1 (F := Ideal) x0 x1 x2 (ix2 p q) = logitAt h w b r s := by
  refine (k1_pay1_entry x0 x1 x2 p q).trans ?_
  unfold logitAt
  rw [h2]
  exact congrArg (· + b (ix2 (0 : Fin 1) s)) (Finset.sum_congr rfl fun k _ => by rw [h0, h1])

/-! ## Where the windows' blocks sit -/

/-- The index maps, decided over the 200 points: at point t = 25·i + j the block of h is (i, 0), the blocks of Why and
    of the bias are (0, j), and the output block is (i, j). -/
theorem idx_facts1 : ∀ t : Fin cfg1.N,
    win1_0.index t (0 : Fin 2) = t.val / 25 ∧ win1_0.index t (1 : Fin 2) = 0
    ∧ win1_1.index t (0 : Fin 2) = 0 ∧ win1_1.index t (1 : Fin 2) = t.val % 25
    ∧ win1_2.index t (0 : Fin 2) = 0 ∧ win1_2.index t (1 : Fin 2) = t.val % 25
    ∧ win1_3.index t (0 : Fin 2) = t.val / 25 ∧ win1_3.index t (1 : Fin 2) = t.val % 25 :=
  (by decide +kernel : ∀ t : Fin grid1.N, _)

/-- An entry of the logits lies in point t's output block iff each coordinate lies in the block's range. -/
theorem mem_blk1 (t : Fin cfg1.N) (i : S4096x32000.Idx) :
    i ∈ ((cfg1.win 3).blk t).view.set ↔ ∀ a : Fin 2, win1_3.index t a * S512x1280.size a ≤ (i a).val
      ∧ (i a).val < win1_3.index t a * S512x1280.size a + S512x1280.size a := by
  show i ∈ ((View.whole main_v7).slice (win1_3.rect t)).set ↔ _
  rw [View.set_slice_whole, Rect.mem_set_unit]
  exact Iff.rfl

/-- Every entry (r, s) of the logits is in the output block of the point 25·(r / 512) + s / 1280, which writes back. -/
theorem cover1 (i : S4096x32000.Idx) :
    ∃ t : Fin cfg1.N, (cfg1.win 3).flush t = true ∧ i ∈ ((cfg1.win 3).blk t).view.set := by
  have h0 : (i 0).val < 4096 := (i 0).isLt
  have h1 : (i 1).val < 32000 := (i 1).isLt
  obtain ⟨t, ht⟩ : ∃ t : Fin cfg1.N, t.val = (i 0).val / 512 * 25 + (i 1).val / 1280 :=
    ⟨⟨(i 0).val / 512 * 25 + (i 1).val / 1280, by rw [show cfg1.N = 200 from N_1]; omega⟩, rfl⟩
  refine ⟨t, flush1_3 t, ?_⟩
  rw [mem_blk1]
  obtain ⟨-, -, -, -, -, -, e0, e1⟩ := idx_facts1 t
  intro a
  match a with
  | ⟨0, _⟩ =>
    show win1_3.index t (0 : Fin 2) * 512 ≤ (i 0).val ∧ (i 0).val < win1_3.index t (0 : Fin 2) * 512 + 512
    rw [e0, ht]; omega
  | ⟨1, _⟩ =>
    show win1_3.index t (1 : Fin 2) * 1280 ≤ (i 1).val ∧ (i 1).val < win1_3.index t (1 : Fin 2) * 1280 + 1280
    rw [e1, ht]; omega

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks read at an entry -/

/-- Row p of the block of h at point t is row (t / 25)·512 + p of h. -/
theorem iblk1_0_apply (c : Dev nD) (t : Fin cfg1.N) (p : Fin 512) (k : Fin 2048) (r : Fin 4096)
    (hr : r.val = t.val / 25 * 512 + p.val) :
    (iblk1 V c 0 t : Vec F S512x2048 .f32) (ix2 p k) = (V c main_v5 : Vec F S4096x2048 .f32) (ix2 r k) := by
  obtain ⟨e0, e1, -⟩ := idx_facts1 t
  unfold iblk1
  rw [View.read_apply]
  show V c main_v5 _ = V c main_v5 _
  congr 1
  funext a
  apply Fin.ext
  match a with
  | ⟨0, _⟩ => show win1_0.index t (0 : Fin 2) * 512 + 1 * p.val = r.val; rw [e0, hr]; omega
  | ⟨1, _⟩ => show win1_0.index t (1 : Fin 2) * 2048 + 1 * k.val = k.val; rw [e1]; omega

/-- Column q of the block of Why at point t is column (t % 25)·1280 + q of Why. -/
theorem iblk1_1_apply (c : Dev nD) (t : Fin cfg1.N) (k : Fin 2048) (q : Fin 1280) (s : Fin 32000)
    (hs : s.val = t.val % 25 * 1280 + q.val) :
    (iblk1 V c 1 t : Vec F S2048x1280 .bf16) (ix2 k q) = (V c main_v4 : Vec F S2048x32000 .bf16) (ix2 k s) := by
  obtain ⟨-, -, e0, e1, -⟩ := idx_facts1 t
  unfold iblk1
  rw [View.read_apply]
  show V c main_v4 _ = V c main_v4 _
  congr 1
  funext a
  apply Fin.ext
  match a with
  | ⟨0, _⟩ => show win1_1.index t (0 : Fin 2) * 2048 + 1 * k.val = k.val; rw [e0]; omega
  | ⟨1, _⟩ => show win1_1.index t (1 : Fin 2) * 1280 + 1 * q.val = s.val; rw [e1, hs]; omega

/-- The bias block at point t, at q, is the bias at (t % 25)·1280 + q. -/
theorem iblk1_2_apply (c : Dev nD) (t : Fin cfg1.N) (q : Fin 1280) (s : Fin 32000)
    (hs : s.val = t.val % 25 * 1280 + q.val) :
    (iblk1 V c 2 t : Vec F S1x1280 .f32) (ix2 (0 : Fin 1) q) = (V c main_v6 : Vec F S1x32000 .f32) (ix2 (0 : Fin 1) s) := by
  obtain ⟨-, -, -, -, e0, e1, -⟩ := idx_facts1 t
  unfold iblk1
  rw [View.read_apply]
  show V c main_v6 _ = V c main_v6 _
  congr 1
  funext a
  apply Fin.ext
  match a with
  | ⟨0, _⟩ => show win1_2.index t (0 : Fin 2) * 1 + 1 * 0 = 0; rw [e0]
  | ⟨1, _⟩ => show win1_2.index t (1 : Fin 2) * 1280 + 1 * q.val = s.val; rw [e1, hs]; omega

/-! ## What each point writes back, and the array after the region -/

/-- What point t writes back to the logits is block t of h·Why + by, of the three arrays as the region finds them. -/
theorem flushed1_eq (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal) (G1 (V c main_v5) (V c main_v4) (V c main_v6)) := by
  show (cfg1.win 3).cut (grid1.coords t) ((dat1 V c).after 3 t) = _
  rw [after1_3]
  refine funext fun (y : S512x1280.Idx) => ?_
  obtain ⟨p, q, rfl⟩ : ∃ (p : Fin 512) (q : Fin 1280), y = ix2 p q := ⟨y 0, y 1, eq_ix2 y⟩
  have ht : t.val < 200 := lt_of_lt_of_eq t.isLt N_1
  have hp : p.val < 512 := p.isLt
  have hq : q.val < 1280 := q.isLt
  obtain ⟨-, -, -, -, -, -, e0, e1⟩ := idx_facts1 t
  obtain ⟨r, hr⟩ : ∃ r : Fin 4096, r.val = t.val / 25 * 512 + p.val := ⟨⟨t.val / 25 * 512 + p.val, by omega⟩, rfl⟩
  obtain ⟨s, hs⟩ : ∃ s : Fin 32000, s.val = t.val % 25 * 1280 + q.val := ⟨⟨t.val % 25 * 1280 + q.val, by omega⟩, rfl⟩
  have he : ((cfg1.win 3).blk t).view.emb (ix2 p q) = ix2 r s := by
    funext a
    apply Fin.ext
    match a with
    | ⟨0, _⟩ => show win1_3.index t (0 : Fin 2) * 512 + 1 * p.val = r.val; rw [e0, hr]; omega
    | ⟨1, _⟩ => show win1_3.index t (1 : Fin 2) * 1280 + 1 * q.val = s.val; rw [e1, hs]; omega
  show k1_pay1 (iblk1 V c 0 t) (iblk1 V c 1 t) (iblk1 V c 2 t) (ix2 p q)
    = G1 (V c main_v5) (V c main_v4) (V c main_v6) (((cfg1.win 3).blk t).view.emb (ix2 p q))
  rw [he]
  exact block_entry1 (V c main_v5) (V c main_v4) (V c main_v6) _ _ _ r s p q
    (fun k => iblk1_0_apply V c t p k r hr) (fun k => iblk1_1_apply V c t k q s hs) (iblk1_2_apply V c t q s hs)

/-- After the region the logits array holds h·Why + by, of the three arrays as the region finds them: every point
    writes its block of that one function, and the blocks cover the array. -/
theorem final1 (V : (c : Dev nD) → (b : Ref sig .tc) → Buf (Elt Ideal) ((c : Thread nD τ).loc b)) (c : Dev nD) :
    (dat1 (F := Ideal) V c).arrAt 3 cfg1.N = G1 (V c main_v5) (V c main_v4) (V c main_v6) :=
  (dat1 V c).arrAt_eq_of_cover 3 (G1 (V c main_v5) (V c main_v4) (V c main_v6)) (fun t _ => flushed1_eq V c t) cover1

end Cert.KernelIdeal.Hand

end
-- ==== Proof.LibSumBlocks.lean ====
/-
  Regrouping a finite sum by blocks.  A sum over `Fin n` with `n = a * b` is the sum over the `a`
  blocks of `b` consecutive positions of each block's sum: position `p * b + q` is the `q`-th of
  block `p`.  Valid in any commutative additive monoid (the extended reals included: no
  cancellation is used), because it is only a re-indexing along the bijection
  `Fin a × Fin b ≃ Fin (a * b)`.
-/
import Mathlib.Algebra.BigOperators.Fin
import Mathlib.Logic.Equiv.Fin.Basic

namespace LibSumBlocks

/-- Position `q` of block `p` lies below `a * b`. -/
theorem mul_add_lt {a b p q : ℕ} (hp : p < a) (hq : q < b) : p * b + q < a * b :=
  calc p * b + q < p * b + b := by omega
    _ = (p + 1) * b := by rw [Nat.add_mul, Nat.one_mul]
    _ ≤ a * b := Nat.mul_le_mul_right b hp

/-- A sum over `Fin n`, `n = a * b`, is the double sum over the block `p : Fin a` and the position
    `q : Fin b` inside it of the term at `p * b + q`. -/
theorem sum_fin_blocks {M : Type*} [AddCommMonoid M] {n : ℕ} (a b : ℕ) (hn : a * b = n) (f : Fin n → M) :
    ∑ i : Fin n, f i
      = ∑ p : Fin a, ∑ q : Fin b, f ⟨p.val * b + q.val, hn ▸ mul_add_lt p.isLt q.isLt⟩ := by
  subst hn
  rw [← Equiv.sum_comp finProdFinEquiv f, Fintype.sum_prod_type]
  refine Finset.sum_congr rfl fun p _ => Finset.sum_congr rfl fun q _ => ?_
  refine congrArg f (Fin.ext ?_)
  show q.val + b * p.val = p.val * b + q.val
  rw [Nat.mul_comm, Nat.add_comm]

/-- The same for a term that depends on the position only through its value. -/
theorem sum_fin_nat_blocks {M : Type*} [AddCommMonoid M] {n : ℕ} (a b : ℕ) (hn : a * b = n) (g : ℕ → M) :
    ∑ i : Fin n, g i.val = ∑ p : Fin a, ∑ q : Fin b, g (p.val * b + q.val) :=
  sum_fin_blocks a b hn fun i => g i.val

/-- Three levels: `n = a * b * c` positions as `a` blocks of `b` rows of `c` entries; entry `l` of row `r` of
    block `t` is position `(t * b + r) * c + l`. -/
theorem sum_fin_nat_blocks3 {M : Type*} [AddCommMonoid M] {n : ℕ} (a b c : ℕ) (hn : a * b * c = n) (g : ℕ → M) :
    ∑ i : Fin n, g i.val
      = ∑ t : Fin a, ∑ r : Fin b, ∑ l : Fin c, g ((t.val * b + r.val) * c + l.val) := by
  rw [sum_fin_nat_blocks (a * b) c hn g]
  exact sum_fin_nat_blocks a b rfl fun R => ∑ l : Fin c, g (R * c + l.val)

/-- A sum over `Finset.range N` of a function that, below `N`, is a function of the `Fin N` position: the two
    spellings of one sum. -/
theorem sum_range_eq_sum_fin {M : Type*} [AddCommMonoid M] (N : ℕ) (g : ℕ → M) (f : Fin N → M)
    (h : ∀ t : Fin N, g t.val = f t) : ∑ s ∈ Finset.range N, g s = ∑ t : Fin N, f t := by
  rw [← Fin.sum_univ_eq_sum_range]
  exact Finset.sum_congr rfl fun t _ => h t

end LibSumBlocks
-- ==== Proof.LibNatRead.lean ====
/-
  Reading an array at natural-number coordinates.

  An entry of a rank-one, rank-two or rank-three array is addressed by a tuple of bounded coordinates; tile arithmetic
  (block index times block size plus offset) is easier to state over plain natural numbers. `at1`, `at2`, `at3`
  read the array at natural coordinates, giving zero outside the extents, and each entry IS the reading at the values
  of its coordinates (`apply_eq_at1` … `apply_eq_at3`), so an index equation becomes one equation of naturals per axis.
-/
import Idealize.ShloMosaic.Lib.ValueIdx

noncomputable section

namespace Cert.Lib.NatRead

open Idealize.ShloMosaic Idealize.ShloMosaic.ValueIdx

variable {α : Type} [Zero α]

/-- A length-`a` vector read at a natural position: its entry when in range, zero otherwise. -/
def at1 {a : ℕ} (A : (⟨1, ![a]⟩ : Shape).Idx → α) (r : ℕ) : α :=
  if h : r < a then A (ix1 ⟨r, h⟩) else 0

theorem at1_of_lt {a : ℕ} (A : (⟨1, ![a]⟩ : Shape).Idx → α) {r : ℕ} (hr : r < a) : at1 A r = A (ix1 ⟨r, hr⟩) := dif_pos hr

/-- An entry of a vector is the reading at the value of its coordinate. -/
theorem apply_eq_at1 {a : ℕ} (A : (⟨1, ![a]⟩ : Shape).Idx → α) (j : (⟨1, ![a]⟩ : Shape).Idx) {r : ℕ} (hr : (j 0).val = r) :
    A j = at1 A r := by
  subst hr
  rw [at1_of_lt A (j 0).isLt]
  exact congrArg A (eq_ix1 j)

/-- An `[a, b]` array read at natural coordinates: its entry when both are in range, zero otherwise. -/
def at2 {a b : ℕ} (A : (⟨2, ![a, b]⟩ : Shape).Idx → α) (r c : ℕ) : α :=
  if h : r < a ∧ c < b then A (ix2 ⟨r, h.1⟩ ⟨c, h.2⟩) else 0

theorem at2_of_lt {a b : ℕ} (A : (⟨2, ![a, b]⟩ : Shape).Idx → α) {r c : ℕ} (hr : r < a) (hc : c < b) :
    at2 A r c = A (ix2 ⟨r, hr⟩ ⟨c, hc⟩) := dif_pos ⟨hr, hc⟩

/-- An entry of a matrix is the reading at the values of its two coordinates. -/
theorem apply_eq_at2 {a b : ℕ} (A : (⟨2, ![a, b]⟩ : Shape).Idx → α) (j : (⟨2, ![a, b]⟩ : Shape).Idx) {r c : ℕ}
    (hr : (j 0).val = r) (hc : (j 1).val = c) : A j = at2 A r c := by
  subst hr hc
  rw [at2_of_lt A (idx2_lt0 j) (idx2_lt1 j)]
  exact congrArg A (eq_ix2 j)

/-- An `[a, b, c]` array read at natural coordinates: its entry when all three are in range, zero otherwise. -/
def at3 {a b c : ℕ} (A : (⟨3, ![a, b, c]⟩ : Shape).Idx → α) (r s u : ℕ) : α :=
  if h : r < a ∧ s < b ∧ u < c then A (ix3 ⟨r, h.1⟩ ⟨s, h.2.1⟩ ⟨u, h.2.2⟩) else 0

theorem at3_of_lt {a b c : ℕ} (A : (⟨3, ![a, b, c]⟩ : Shape).Idx → α) {r s u : ℕ} (hr : r < a) (hs : s < b) (hu : u < c) :
    at3 A r s u = A (ix3 ⟨r, hr⟩ ⟨s, hs⟩ ⟨u, hu⟩) := dif_pos ⟨hr, hs, hu⟩

/-- An entry of a rank-three array is the reading at the values of its three coordinates. -/
theorem apply_eq_at3 {a b c : ℕ} (A : (⟨3, ![a, b, c]⟩ : Shape).Idx → α) (j : (⟨3, ![a, b, c]⟩ : Shape).Idx) {r s u : ℕ}
    (hr : (j 0).val = r) (hs : (j 1).val = s) (hu : (j 2).val = u) : A j = at3 A r s u := by
  subst hr hs hu
  rw [at3_of_lt A (j 0).isLt (j 1).isLt (j 2).isLt]
  exact congrArg A (eq_ix3 j)

end Cert.Lib.NatRead

end
-- ==== Proof.KernelIdeal.Region0Value.lean ====
import proofs.«177360_j40604620816471_2_alg».proof.Proof.KernelIdeal.Region0
import proofs.«177360_j40604620816471_2_alg».proof.Proof.KernelIdeal.Hidden
import proofs.«177360_j40604620816471_2_alg».proof.Proof.LibDenseLayer
import proofs.«177360_j40604620816471_2_alg».proof.Proof.LibSumBlocks
import proofs.«177360_j40604620816471_2_alg».proof.Proof.LibNatRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Lib.NatRead
open Cert.KernelIdeal Cert.KernelIdeal.Gen

/-! # What the first kernel region leaves in its output array, at exact arithmetic

Entry (p, q) of the accumulator after the point of row tile i and vocabulary tile k is the sum, over the vocabulary
tiles s ≤ k and the 1280 positions l of a tile, of x(512·i + p, 1280·s + l) · w(1280·s + l, q). At k = 24 that is the
whole sum over the 32000 vocabulary positions, regrouped by tiles; the output block stored there is tanh of it plus
the bias row, and those blocks tile the output array. -/

/-! ## The payloads at an entry -/

/-- The region's product contracts the left block's columns against the right block's rows. -/
theorem isMat0 : Cert.Lib.DenseLayer.IsMatProduct dot_S512x1280_S1280x2048_S512x2048_1_0_0_1_n_n :=
  ⟨rfl, rfl, rfl, rfl, rfl, rfl⟩

/-- The cleared accumulator is zero everywhere. -/
theorem k0_pay1_entry (p : Fin 512) (q : Fin 2048) : k0_pay1 (F := Ideal) (ix2 p q) = 0 := by
  unfold k0_pay1
  rw [shapeCast_self]
  exact Ideal.ofBits_zero_f32

/-- One accumulation step at an entry: what was there plus the row of the left block times the column of the right. -/
theorem k0_pay2_entry (x0 : FVec Ideal S512x1280 .f32) (acc : FVec Ideal S512x2048 .f32) (x1 : FVec Ideal S1280x2048 .bf16)
    (p : Fin 512) (q : Fin 2048) :
    k0_pay2 (F := Ideal) x0 acc x1 (ix2 p q) = acc (ix2 p q) + ∑ l : Fin 1280, x0 (ix2 p l) * x1 (ix2 l q) := by
  unfold k0_pay2
  rw [shapeCast_self]
  refine (ValueIdx.addf_apply _ _ _).trans ?_
  refine congrArg₂ (· + ·) rfl ?_
  refine (Cert.Lib.DenseLayer.matmul_entry isMat0 _ _ p q).trans ?_
  refine Finset.sum_congr rfl fun l _ => ?_
  rw [shapeCast_self]
  rfl

/-- The stored output at an entry: tanh of the accumulator plus the bias row's entry in that column. -/
theorem k0_pay3_entry (acc : FVec Ideal S512x2048 .f32) (hc : FVec Ideal S1x2048 .f32) (p : Fin 512) (q : Fin 2048) :
    k0_pay3 (F := Ideal) acc hc (ix2 p q) = Ideal.tanh (acc (ix2 p q) + hc (ix2 (0 : Fin 1) q)) := by
  unfold k0_pay3
  show FloatOps.tanh (addf acc (broadcastTo S512x2048 (shapeCast S1x2048 hc shapeCasts_S1x2048_S1x2048) broadcasts_S1x2048_S512x2048) (ix2 p q)) = _
  rw [Ideal.tanh_def]
  refine congrArg Ideal.tanh ?_
  refine (ValueIdx.addf_apply _ _ _).trans ?_
  refine congrArg₂ (· + ·) rfl ?_
  refine (ValueIdx.broadcastTo_1b_ab_apply _ _ p q).trans ?_
  rw [shapeCast_self]

/-! ## The windows' blocks, read at natural coordinates -/

/-- The printed index maps, decided over the grid: point t is row tile t / 25, vocabulary tile t % 25. -/
theorem idx_facts0 : ∀ t : Fin cfg0.N,
    win0_0.index t (0 : Fin 2) = t.val / 25 ∧ win0_0.index t (1 : Fin 2) = t.val % 25
    ∧ win0_1.index t (0 : Fin 2) = t.val % 25 ∧ win0_1.index t (1 : Fin 2) = 0
    ∧ win0_2.index t (0 : Fin 2) = 0 ∧ win0_2.index t (1 : Fin 2) = 0
    ∧ win0_3.index t (0 : Fin 2) = t.val / 25 ∧ win0_3.index t (1 : Fin 2) = 0 :=
  (by decide +kernel : ∀ t : Fin grid0.N, _)

variable (V : (c : Dev nD) → (b : Ref sig .tc) → Buf (Elt Ideal) ((c : Thread nD τ).loc b))

/-- The x block of the point at position `n`. -/
theorem iblk0_0_at (c : Dev nD) (n : ℕ) (hn : n < cfg0.N) (p : Fin 512) (l : Fin 1280) :
    (iblk0 V c 0 ⟨n, hn⟩ (ix2 p l) : EReal) = at2 (α := EReal) (a := 4096) (b := 32000) (V c main_arg1) (n / 25 * 512 + p.val) (n % 25 * 1280 + l.val) := by
  obtain ⟨e0, e1, -⟩ := idx_facts0 ⟨n, hn⟩
  have e0' : win0_0.index ⟨n, hn⟩ (0 : Fin 2) = n / 25 := e0
  have e1' : win0_0.index ⟨n, hn⟩ (1 : Fin 2) = n % 25 := e1
  show (V c main_arg1 : S4096x32000.Idx → EReal) (((cfg0.win 0).blk ⟨n, hn⟩).view.emb (ix2 p l)) = _
  refine apply_eq_at2 (α := EReal) (a := 4096) (b := 32000) (V c main_arg1) _ ?_ ?_
  · show win0_0.index ⟨n, hn⟩ (0 : Fin 2) * 512 + 1 * p.val = _
    rw [e0']; omega
  · show win0_0.index ⟨n, hn⟩ (1 : Fin 2) * 1280 + 1 * l.val = _
    rw [e1']; omega

/-- The weight block of the point at position `n`. -/
theorem iblk0_1_at (c : Dev nD) (n : ℕ) (hn : n < cfg0.N) (l : Fin 1280) (q : Fin 2048) :
    (iblk0 V c 1 ⟨n, hn⟩ (ix2 l q) : EReal) = at2 (α := EReal) (a := 32000) (b := 2048) (V c main_v3) (n % 25 * 1280 + l.val) q.val := by
  obtain ⟨-, -, e2, e3, -⟩ := idx_facts0 ⟨n, hn⟩
  have e2' : win0_1.index ⟨n, hn⟩ (0 : Fin 2) = n % 25 := e2
  show (V c main_v3 : S32000x2048.Idx → EReal) (((cfg0.win 1).blk ⟨n, hn⟩).view.emb (ix2 l q)) = _
  refine apply_eq_at2 (α := EReal) (a := 32000) (b := 2048) (V c main_v3) _ ?_ ?_
  · show win0_1.index ⟨n, hn⟩ (0 : Fin 2) * 1280 + 1 * l.val = _
    rw [e2']; omega
  · show win0_1.index ⟨n, hn⟩ (1 : Fin 2) * 2048 + 1 * q.val = _
    rw [e3]; omega

/-- The bias row's block is the whole row at every point. -/
theorem iblk0_2_at (c : Dev nD) (n : ℕ) (hn : n < cfg0.N) (q : Fin 2048) :
    (iblk0 V c 2 ⟨n, hn⟩ (ix2 (0 : Fin 1) q) : EReal) = at2 (α := EReal) (a := 1) (b := 2048) (V c main_v2) 0 q.val := by
  obtain ⟨-, -, -, -, e4, e5, -⟩ := idx_facts0 ⟨n, hn⟩
  show (V c main_v2 : S1x2048.Idx → EReal) (((cfg0.win 2).blk ⟨n, hn⟩).view.emb (ix2 (0 : Fin 1) q)) = _
  refine apply_eq_at2 (α := EReal) (a := 1) (b := 2048) (V c main_v2) _ ?_ ?_
  · show win0_2.index ⟨n, hn⟩ (0 : Fin 2) * 1 + 1 * (0 : Fin 1).val = _
    rw [e4]; rfl
  · show win0_2.index ⟨n, hn⟩ (1 : Fin 2) * 2048 + 1 * q.val = _
    rw [e5]; omega

/-! ## The accumulator as a partial sum -/

/-- The sum over the first `n` vocabulary tiles of row `r` of x against column `q` of the weights. -/
def tileSum (A : S4096x32000.Idx → EReal) (W : S32000x2048.Idx → EReal) (r : ℕ) (q : ℕ) (n : ℕ) : EReal :=
  ∑ s ∈ Finset.range n, ∑ l : Fin 1280, at2 A r (s * 1280 + l.val) * at2 W (s * 1280 + l.val) q

/-- A product of two blocks whose entries are known readings is one vocabulary tile's summand. -/
theorem tile_term (x0 : FVec Ideal S512x1280 .f32) (x1 : FVec Ideal S1280x2048 .bf16)
    (A : S4096x32000.Idx → EReal) (W : S32000x2048.Idx → EReal) (r s qn : ℕ) (p : Fin 512) (q : Fin 2048)
    (h0 : ∀ l : Fin 1280, x0 (ix2 p l) = at2 A r (s * 1280 + l.val))
    (h1 : ∀ l : Fin 1280, x1 (ix2 l q) = at2 W (s * 1280 + l.val) qn) :
    ∑ l : Fin 1280, x0 (ix2 p l) * x1 (ix2 l q) = ∑ l : Fin 1280, at2 A r (s * 1280 + l.val) * at2 W (s * 1280 + l.val) qn :=
  Finset.sum_congr rfl fun l _ => by rw [h0, h1]

/-- After the point at position `n` the accumulator's entry (p, q) is the sum over the vocabulary tiles up to the
    point's own. -/
theorem accAt_entry (c : Dev nD) (p : Fin 512) (q : Fin 2048) : ∀ (n : ℕ) (hn : n < cfg0.N),
    (accAt V c n hn (ix2 p q) : EReal)
      = tileSum (V c main_arg1) (V c main_v3) (n / 25 * 512 + p.val) q.val (n % 25 + 1)
  | 0, hn => by
    have e : accAt V c 0 hn = k0_pay2 (iblk0 V c 0 ⟨0, hn⟩) (k0_pay1 (F := Ideal)) (iblk0 V c 1 ⟨0, hn⟩) := rfl
    rw [e]
    refine (k0_pay2_entry _ _ _ p q).trans ?_
    rw [k0_pay1_entry, zero_add]
    refine (tile_term _ _ _ _ _ _ _ p q (fun l => iblk0_0_at V c 0 hn p l) (fun l => iblk0_1_at V c 0 hn l q)).trans ?_
    unfold tileSum
    rw [Finset.sum_range_one]
  | n + 1, hn => by
    by_cases h0 : (n + 1) % 25 = 0
    · have e : accAt V c (n + 1) hn = k0_pay2 (iblk0 V c 0 ⟨n + 1, hn⟩) (k0_pay1 (F := Ideal)) (iblk0 V c 1 ⟨n + 1, hn⟩) := if_pos h0
      rw [e]
      refine (k0_pay2_entry _ _ _ p q).trans ?_
      rw [k0_pay1_entry, zero_add]
      refine (tile_term _ _ _ _ _ _ _ p q (fun l => iblk0_0_at V c (n + 1) hn p l) (fun l => iblk0_1_at V c (n + 1) hn l q)).trans ?_
      unfold tileSum
      rw [h0, Finset.sum_range_one]
    · have e : accAt V c (n + 1) hn
          = k0_pay2 (iblk0 V c 0 ⟨n + 1, hn⟩) (accAt V c n (Nat.lt_of_succ_lt hn)) (iblk0 V c 1 ⟨n + 1, hn⟩) := if_neg h0
      rw [e]
      refine (k0_pay2_entry _ _ _ p q).trans ?_
      have hd : (n + 1) / 25 = n / 25 := by omega
      have hm : (n + 1) % 25 = n % 25 + 1 := by omega
      rw [accAt_entry c p q n (Nat.lt_of_succ_lt hn), hd, hm]
      unfold tileSum
      rw [Finset.sum_range_succ _ (n % 25 + 1)]
      refine congrArg₂ (· + ·) rfl ?_
      have t := tile_term _ _ _ _ _ _ _ p q (fun l => iblk0_0_at V c (n + 1) hn p l) (fun l => iblk0_1_at V c (n + 1) hn l q)
      rw [hd, hm] at t
      exact t

/-! ## The stored block, and the array after the region -/

/-- All 25 vocabulary tiles together are the whole sum over the 32000 vocabulary positions: position v is position
    v % 1280 of tile v / 1280. -/
theorem tileSum_full (A : S4096x32000.Idx → EReal) (W : S32000x2048.Idx → EReal) (r q : ℕ) :
    tileSum A W r q 25 = ∑ v : Fin 32000, at2 A r v.val * at2 W v.val q := by
  unfold tileSum
  rw [Finset.sum_range]
  exact (LibSumBlocks.sum_fin_nat_blocks 25 1280 rfl (fun v => at2 A r v * at2 W v q)).symm

/-- The hidden state at (r, q), with the arrays read at natural coordinates. -/
theorem hidAt_at (x : FVec Ideal S4096x32000 .f32) (w : FVec Ideal S32000x2048 .bf16) (hc : FVec Ideal S1x2048 .f32)
    (r : Fin 4096) (q : Fin 2048) :
    hidAt x w hc r q
      = Ideal.tanh ((∑ v : Fin 32000, at2 (α := EReal) (a := 4096) (b := 32000) x r.val v.val
            * at2 (α := EReal) (a := 32000) (b := 2048) w v.val q.val)
          + at2 (α := EReal) (a := 1) (b := 2048) hc 0 q.val) := by
  unfold hidAt
  refine congrArg Ideal.tanh (congrArg₂ (· + ·) (Finset.sum_congr rfl fun v _ => ?_) ?_)
  · rw [at2_of_lt (α := EReal) (a := 4096) (b := 32000) x r.isLt v.isLt, at2_of_lt (α := EReal) (a := 32000) (b := 2048) w v.isLt q.isLt]
  · rw [at2_of_lt (α := EReal) (a := 1) (b := 2048) hc Nat.zero_lt_one q.isLt]
    rfl

/-- At a point of the last vocabulary tile the stored block's entry (p, q) is the hidden state at row
    512·(row tile) + p, column q. -/
theorem out_entry (c : Dev nD) (n : ℕ) (hn : n < cfg0.N) (h24 : n % 25 = 24) (p : Fin 512) (q : Fin 2048)
    (r : Fin 4096) (hr : r.val = n / 25 * 512 + p.val) :
    (k0_pay3 (F := Ideal) (accAt V c n hn) (iblk0 V c 2 ⟨n, hn⟩) (ix2 p q) : EReal)
      = hidAt (V c main_arg1) (V c main_v3) (V c main_v2) r q := by
  refine (k0_pay3_entry _ _ p q).trans ?_
  have h25 : n % 25 + 1 = 25 := by omega
  rw [hidAt_at, accAt_entry V c p q n hn, h25, tileSum_full, iblk0_2_at V c n hn q, hr]

/-- An entry of the hidden-state array lies in point t's output block iff each coordinate lies in the block's range. -/
theorem mem_blk0 (t : Fin cfg0.N) (i : S4096x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v5).slice (win0_3.rect t)).set ↔ _
  rw [View.set_slice_whole, Rect.mem_set_unit]
  exact Iff.rfl

/-- Every entry (r, q) of the hidden-state array is in the output block of the point 25·(r / 512) + 24, the last
    vocabulary tile of its row tile, which writes back. -/
theorem cover0 (i : S4096x2048.Idx) :
    ∃ t : Fin cfg0.N, (cfg0.win 3).flush t = true ∧ i ∈ ((cfg0.win 3).blk t).view.set := by
  have h0 : (i 0).val < 4096 := (i 0).isLt
  have h1 : (i 1).val < 2048 := (i 1).isLt
  obtain ⟨t, ht⟩ : ∃ t : Fin cfg0.N, t.val = (i 0).val / 512 * 25 + 24 :=
    ⟨⟨(i 0).val / 512 * 25 + 24, by rw [show cfg0.N = 200 from N_0]; omega⟩, rfl⟩
  refine ⟨t, (flush0_3 t).mpr (by rw [ht]; omega), ?_⟩
  rw [mem_blk0]
  obtain ⟨-, -, -, -, -, -, e6, e7⟩ := idx_facts0 t
  intro a
  match a with
  | ⟨0, _⟩ =>
    show win0_3.index t (0 : Fin 2) * 512 ≤ (i 0).val ∧ (i 0).val < win0_3.index t (0 : Fin 2) * 512 + 512
    rw [e6, ht]; omega
  | ⟨1, _⟩ =>
    show win0_3.index t (1 : Fin 2) * 2048 ≤ (i 1).val ∧ (i 1).val < win0_3.index t (1 : Fin 2) * 2048 + 2048
    rw [e7]; omega

attribute [local irreducible] accAt in
set_option maxRecDepth 100000 in
/-- What a point of the last vocabulary tile writes back is its block of the hidden-state array, of the three arrays
    as the region finds them. -/
theorem flushed0_eq (c : Dev nD) (t : Fin cfg0.N) (hf : (cfg0.win 3).flush t = true) :
    (dat0 (F := Ideal) V c).flushed 3 t
      = ((cfg0.win 3).blk t).view.read (Elt Ideal) (G0 (V c main_arg1) (V c main_v3) (V c main_v2)) := by
  have h24 : t.val % 25 = 24 := (flush0_3 t).mp hf
  show (cfg0.win 3).cut (grid0.coords t) ((dat0 V c).after 3 t) = _
  rw [after0_3]
  refine funext fun (y : S512x2048.Idx) => ?_
  obtain ⟨p, q, rfl⟩ : ∃ (p : Fin 512) (q : Fin 2048), y = ix2 p q := ⟨y 0, y 1, eq_ix2 y⟩
  have ht : t.val < 200 := lt_of_lt_of_eq t.isLt N_0
  have hp : p.val < 512 := p.isLt
  obtain ⟨-, -, -, -, -, -, e6, e7⟩ := idx_facts0 t
  obtain ⟨r, hr⟩ : ∃ r : Fin 4096, r.val = t.val / 25 * 512 + p.val := ⟨⟨t.val / 25 * 512 + p.val, by omega⟩, rfl⟩
  have he : ((cfg0.win 3).blk t).view.emb (ix2 p q) = ix2 r q := by
    funext a
    apply Fin.ext
    match a with
    | ⟨0, _⟩ => show win0_3.index t (0 : Fin 2) * 512 + 1 * p.val = r.val; rw [e6, hr]; omega
    | ⟨1, _⟩ => show win0_3.index t (1 : Fin 2) * 2048 + 1 * q.val = q.val; rw [e7]; omega
  show k0_pay3 (accAt V c t.val t.isLt) (iblk0 V c 2 t) (ix2 p q)
    = G0 (V c main_arg1) (V c main_v3) (V c main_v2) (((cfg0.win 3).blk t).view.emb (ix2 p q))
  rw [he]
  exact out_entry V c t.val t.isLt h24 p q r hr

/-- After the region the hidden-state array holds tanh(x·w + bias row), of the three arrays as the region finds them:
    every point of the last vocabulary tile writes its block of that one function, and those blocks cover the array. -/
theorem final0 (c : Dev nD) :
    (dat0 (F := Ideal) V c).arrAt 3 cfg0.N = G0 (V c main_arg1) (V c main_v3) (V c main_v2) :=
  (dat0 V c).arrAt_eq_of_cover 3 (G0 (V c main_arg1) (V c main_v3) (V c main_v2)) (fun t hf => flushed0_eq V c t hf) cover0

end Cert.KernelIdeal.Hand

end
-- ==== Proof.KernelIdeal.Bridge.lean ====
/-
  From the kernel program's two regions to the specification, at exact arithmetic.

  The first region leaves the hidden state  tanh(x · w + hc)  of the three arrays it reads, the second  h · w' + b  of
  its three. Between the launch and the regions the host only converts the two weight matrices to the narrower format
  (the identity on the extended reals), forms the recurrent row  hprev · Whh + bh  and lays the output bias out as a
  row; after them it takes the last row of the hidden state. Entry by entry these are the specification's
  definitions, and every sum is already in the specification's order.
-/
import proofs.«177360_j40604620816471_2_alg».proof.Proof.KernelIdeal.Hidden
import proofs.«177360_j40604620816471_2_alg».proof.Proof.KernelIdeal.Region1Value
import proofs.«177360_j40604620816471_2_alg».proof.Proof.KernelIdeal.Region0Value
import proofs.«177360_j40604620816471_2_alg».proof.Proof.KernelIdeal.Run
import proofs.«177360_j40604620816471_2_alg».proof.Proof.Spec
import proofs.«177360_j40604620816471_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix1 ix2 eq_ix2)

/-! ## The host's pieces at an entry -/

/-- The recurrent row's product contracts hprev's columns against Whh's rows. -/
theorem isMatHc : Cert.Lib.DenseLayer.IsMatProduct dot_S1x2048_S2048x2048_S1x2048_1_0_0_1_n_n :=
  ⟨rfl, rfl, rfl, rfl, rfl, rfl⟩

/-- The recurrent row as the host forms it, at column q: Σₖ hprev(0,k)·Whh(k,q) + bh(q). -/
theorem hc_entry (a0 : FVec Ideal S1x2048 .f32) (a3 : FVec Ideal S2048x2048 .f32) (a5 : FVec Ideal S2048 .f32)
    (q : Fin 2048) :
    addf (Host.dotGeneral (F := Ideal) dot_S1x2048_S2048x2048_S1x2048_1_0_0_1_n_n none a0 a3)
        (broadcastInDim S1x2048 ![1] bcast_S2048_S1x2048_1 a5) (ix2 (0 : Fin 1) q)
      = Cert.Spec.hcontrib a0 a3 a5 q := by
  refine (ValueIdx.addf_apply _ _ _).trans ?_
  unfold Cert.Spec.hcontrib
  refine congrArg₂ (· + ·) (Cert.Lib.DenseLayer.dotGeneral_entry isMatHc a0 a3 (0 : Fin 1) q) ?_
  refine broadcastInDim_apply _ bcast_S2048_S1x2048_1 a5 (ix2 (0 : Fin 1) q) (ix1 q) fun ax => ?_
  match ax with
  | ⟨0, _⟩ => show q.val = if (2048 : Nat) = 1 then 0 else q.val; rw [if_neg (by decide)]

/-- The conversion to the narrower format is the identity on the extended reals. -/
theorem convert_entry {s : Shape} (a : FVec Ideal s .f32) (i : s.Idx) :
    (truncf .bf16 a bitsLt_bf16_f32 : FVec Ideal s .bf16) i = a i := rfl

/-- The output bias laid out as a row, at column r: by(r). -/
theorem bias_row_entry (a6 : FVec Ideal S32000 .f32) (r : Fin 32000) :
    shapeCast S1x32000 a6 shapeCasts_S32000_S1x32000 (ix2 (0 : Fin 1) r) = a6 (ix1 r) :=
  ValueIdx.shapeCast_a_1a_apply a6 shapeCasts_S32000_S1x32000 0 r

/-- The last row of a 4096-row array, at column q. -/
theorem last_row_entry {α : Type} (X : S4096x2048.Idx → α) (q : Fin 2048) :
    extractStridedSlice S1x2048 ![4095, 0] X slices_S4096x2048_S1x2048_4095_0 (ix2 (0 : Fin 1) q)
      = X (ix2 (4095 : Fin 4096) q) :=
  extractStridedSlice_apply ![4095, 0] X slices_S4096x2048_S1x2048_4095_0 (ix2 (0 : Fin 1) q) (ix2 (4095 : Fin 4096) q)
    fun a => match a with
      | ⟨0, _⟩ => rfl
      | ⟨1, _⟩ => (Nat.zero_add _).symm

/-! ## The two regions' functions, composed with the host's pieces, are the specification -/

section
variable (a0 : FVec Ideal S1x2048 .f32) (a1 : FVec Ideal S4096x32000 .f32) (a2 : FVec Ideal S32000x2048 .f32)
  (a3 : FVec Ideal S2048x2048 .f32) (a4 : FVec Ideal S2048x32000 .f32) (a5 : FVec Ideal S2048 .f32)
  (a6 : FVec Ideal S32000 .f32)

/-- The hidden state the first region leaves, at (p, q), is the specification's. -/
theorem hid_bridge (p : Fin 4096) (q : Fin 2048) :
    hidAt a1 (truncf .bf16 a2 bitsLt_bf16_f32)
        (addf (Host.dotGeneral (F := Ideal) dot_S1x2048_S2048x2048_S1x2048_1_0_0_1_n_n none a0 a3)
          (broadcastInDim S1x2048 ![1] bcast_S2048_S1x2048_1 a5)) p q
      = Cert.Spec.H a0 a1 a2 a3 a5 p q := by
  unfold hidAt Cert.Spec.H Cert.Spec.hid
  exact congrArg Ideal.tanh (congrArg₂ (· + ·) (Finset.sum_congr rfl fun v _ => rfl) (hc_entry a0 a3 a5 q))

/-- The logits the second region leaves are the specification's. -/
theorem logits_bridge :
    G1 (G0 a1 (truncf .bf16 a2 bitsLt_bf16_f32)
          (addf (Host.dotGeneral (F := Ideal) dot_S1x2048_S2048x2048_S1x2048_1_0_0_1_n_n none a0 a3)
            (broadcastInDim S1x2048 ![1] bcast_S2048_S1x2048_1 a5)))
        (truncf .bf16 a4 bitsLt_bf16_f32) (fun i => shapeCast S1x32000 a6 shapeCasts_S32000_S1x32000 i)
      = Cert.Spec.logits a0 a1 a2 a3 a4 a5 a6 := by
  funext j
  obtain ⟨p, r, rfl⟩ : ∃ (p : Fin 4096) (r : Fin 32000), j = ix2 p r := ⟨j 0, j 1, eq_ix2 j⟩
  show logitAt _ _ _ p r = Cert.Spec.logit (Cert.Spec.H a0 a1 a2 a3 a5) a4 a6 p r
  unfold logitAt Cert.Spec.logit
  refine congrArg₂ (· + ·) (Finset.sum_congr rfl fun k _ => ?_) (bias_row_entry a6 r)
  exact congrArg (· * a4 (ix2 k r)) (hid_bridge a0 a1 a2 a3 a5 p k)

/-- The last row of the hidden state the first region leaves is the specification's. -/
theorem hlast_bridge :
    extractStridedSlice S1x2048 ![4095, 0]
        (G0 a1 (truncf .bf16 a2 bitsLt_bf16_f32)
          (addf (Host.dotGeneral (F := Ideal) dot_S1x2048_S2048x2048_S1x2048_1_0_0_1_n_n none a0 a3)
            (broadcastInDim S1x2048 ![1] bcast_S2048_S1x2048_1 a5)))
        slices_S4096x2048_S1x2048_4095_0
      = Cert.Spec.hlast a0 a1 a2 a3 a5 := by
  funext j
  obtain ⟨z, q, rfl⟩ : ∃ (z : Fin 1) (q : Fin 2048), j = ix2 z q := ⟨j 0, j 1, eq_ix2 j⟩
  obtain rfl : z = 0 := Subsingleton.elim _ _
  refine (last_row_entry _ q).trans ?_
  exact hid_bridge a0 a1 a2 a3 a5 (4095 : Fin 4096) q

end

/-! ## The kernel program's run -/

section
variable (m : (ℓ : Loc nD τ sig) → Buf (Elt Ideal) ℓ) (ρ : Dev nD → PrngReg)

/-- The hidden-state array when the first region is left: the specification's hidden state of the arguments, written
    with the host's pieces. -/
theorem hidden_left (c : Dev nD) :
    (dat0 (F := Ideal) (V1 m ρ) c).arrAt 3 cfg0.N
      = G0 (m ((c : Thread nD τ).loc main_arg1)) (truncf .bf16 (m ((c : Thread nD τ).loc main_arg2) : FVec Ideal S32000x2048 .f32) bitsLt_bf16_f32)
          (addf (Host.dotGeneral (F := Ideal) (φ₁ := .f32) (φ₂ := .f32) dot_S1x2048_S2048x2048_S1x2048_1_0_0_1_n_n none
              (m ((c : Thread nD τ).loc main_arg0) : FVec Ideal S1x2048 .f32) (m ((c : Thread nD τ).loc main_arg3) : FVec Ideal S2048x2048 .f32))
            (broadcastInDim S1x2048 ![1] bcast_S2048_S1x2048_1 (m ((c : Thread nD τ).loc main_arg5) : FVec Ideal S2048 .f32))) := by
  rw [final0, V1_main_arg1, V1_main_v3, V1_main_v2]

/-- The logits array when the second region is left is the specification's logits of the arguments. -/
theorem logits_left (c : Dev nD) :
    (dat1 (F := Ideal) (V3 m ρ) c).arrAt 3 cfg1.N
      = Cert.Spec.logits (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [final1, V3_main_v5, V3_main_v4, V3_main_v6, hidden_left m ρ c]
  exact logits_bridge _ _ _ _ _ _ _

/-- The last row the host takes after the regions is the specification's last row of the hidden state. -/
theorem hlast_left (c : Dev nD) :
    extractStridedSlice S1x2048 ![4095, 0] ((dat0 (F := Ideal) (V1 m ρ) c).arrAt 3 cfg0.N) slices_S4096x2048_S1x2048_4095_0
      = Cert.Spec.hlast (m ((c : Thread nD τ).loc main_arg0)) (m ((c : Thread nD τ).loc main_arg1))
          (m ((c : Thread nD τ).loc main_arg2)) (m ((c : Thread nD τ).loc main_arg3)) (m ((c : Thread nD τ).loc main_arg5)) := by
  rw [hidden_left m ρ c]
  exact hlast_bridge _ _ _ _ _

/-- Every weakly fair execution of the kernel program terminates with its first result the logits of the
    specification, its second the last row of the hidden state, both as functions of the arguments' contents at the
    start, and the arguments unchanged. -/
theorem kernel_run_spec :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v7) = Cert.Spec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v8) = Cert.Spec.hlast (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun r h c =>
      ⟨((h c _ (mem_uc main_v7 (by decide))).trans (W5_main_v7 m ρ c)).trans (logits_left m ρ c),
       ((h c _ (mem_uc main_v8 (by decide))).trans (W5_main_v8 m ρ c)).trans (hlast_left m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)
    (run_all m ρ)

end

end Cert.KernelIdeal.Hand

end
-- ==== Proof.lean ====
/-
  The claim: an RNN step computed by two pipelined matrix kernels equals its plain reference, at exact arithmetic.

  Both programs compute  h = tanh(x·Wxh + (hprev·Whh + bh))  and  logits = h·Why + by,  and return the logits and the
  last row of h. The kernel program contracts the 32000-long vocabulary axis in 25 tiles of 1280, adding each tile's
  product into an accumulator that starts at zero, and rounds its matrix factors to a shorter float format on the way
  in. At exact arithmetic a change of format is the identity and the 25 partial sums are one sum regrouped — addition
  of extended reals is commutative and associative — so both sides are the same function of the seven arguments, entry
  by entry (Proof/Spec.lean). No entry's finiteness is used.

  The three frame conjuncts: each program runs to the end, faults nowhere and leaves its arguments as they were. For
  the kernel program, at the word level and at exact arithmetic alike, this is the composition of its five stretches —
  host operations, the first kernel region, a host operation, the second kernel region, a host operation — each
  entered from what the one before left (Proof/Kernel/Run.lean, Proof/KernelIdeal/Run.lean); the first region's
  invariant carries the accumulator from grid point to grid point. The idealization rewrote no operation, so the fourth
  conjunct is trivial. The fifth reads both programs' results as the specification's two arrays.
-/
import proofs.«177360_j40604620816471_2_alg».proof.Defs
import proofs.«177360_j40604620816471_2_alg».proof.Proof.Gen.Kernel
import proofs.«177360_j40604620816471_2_alg».proof.Proof.Gen.KernelIdeal
import proofs.«177360_j40604620816471_2_alg».proof.Proof.Gen.ReferenceIdeal
import proofs.«177360_j40604620816471_2_alg».proof.Proof.Gen.Pre_finite_inputs
import proofs.«177360_j40604620816471_2_alg».proof.Proof.Frames
import proofs.«177360_j40604620816471_2_alg».proof.Proof.RefIsSpec
import proofs.«177360_j40604620816471_2_alg».proof.Proof.KernelIdeal.Bridge

noncomputable section

namespace Cert.Proof

open Idealize.ShloMosaic Idealize.SL.Sem

/-- Run from memories that agree on the seven arguments, the kernel program and the reference both end with the
    specification's logits and last hidden row, and with their arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.hlast (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)),
    Cert.KernelIdeal.Hand.kernel_run_spec m ρ, ?_⟩
  refine (θ_run (Cert.ReferenceIdeal.defs (F := Ideal)) _ _).mono (fun r h c => ?_) (Cert.ReferenceIdeal.RefValue.run_spec m' ρ')
  obtain ⟨h10, h11, rest⟩ := h c
  obtain ⟨e0, e1, e2, e3, e4, e5, e6⟩ := hagree c
  refine ⟨?_, ?_, rest⟩
  · rw [h10, e0, e1, e2, e3, e4, e5, e6]
  · rw [h11, e0, e1, e2, e3, e5]

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.ReferenceIdeal.RefValue.frame_ri, trivial, algebraic⟩

end Cert.Proof

end
